-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S67x64 : S_.BroadcastsInDim S67x64 (![] : Fin 0 → Fin S67x64.rank)
  reducesTo_S67x64_S_d0_1 : S67x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg10 : FVec F S64x64 .f32) (main_arg11 : FVec F S64 .f32) (main_arg12 : FVec F S64x2 .f32) (main_arg13 : FVec F S2 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg12
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) (main_v13 : IVec S_ 1) (main_v16 : IVec S67x64 1) : IVec S_ 1 :=
  let main_c_5 : IVec S_ 1 := constantI S_ 1 1#1
  let main_v17 : IVec S_ 1 := (fun x v => Host.reduce IntOp.andi x v reducesTo_S67x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x3 .f32) (main_arg1 : FVec F S100000x64 .f32) (main_arg2 : FVec F S100000x3 .f32) (main_arg3 : IVec S100000 32) (main_arg4 : IVec S2000000 32) (main_arg5 : IVec S2000000 32) (main_arg6 : FVec F S67x64 .f32) (main_arg7 : FVec F S64 .f32) (main_arg8 : FVec F S64x64 .f32) (main_arg9 : FVec F S64 .f32) (main_arg10 : FVec F S64x64 .f32) (main_arg11 : FVec F S64 .f32) (main_arg12 : FVec F S64x2 .f32) (main_arg13 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S67x64 .f32 := Host.absf main_arg6
  let main_cst_4 : FVec F S_ .f32 := constant S_ .f32 0x7F800000#32
  let main_v15 : FVec F S67x64 .f32 := broadcastInDim S67x64 ![] bcast_S_S67x64 main_cst_4
  let main_v16 : IVec S67x64 1 := cmpf .olt main_v14 main_v15
  fn_part1 (F := F) main_arg7 main_arg8 main_arg9 main_arg10 main_arg11 main_arg12 main_arg13 main_v13 main_v16
-- ==== Kernel.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S2000000x1 : Shape := ⟨2, ![2000000, 1]⟩
abbrev S2000000x64 : Shape := ⟨2, ![2000000, 64]⟩
abbrev S2000000x3 : Shape := ⟨2, ![2000000, 3]⟩
abbrev S2000000x67 : Shape := ⟨2, ![2000000, 67]⟩
abbrev S500000x268 : Shape := ⟨2, ![500000, 268]⟩
abbrev S4x4 : Shape := ⟨2, ![4, 4]⟩
abbrev S4x1x4x1 : Shape := ⟨4, ![4, 1, 4, 1]⟩
abbrev S1x67x1x64 : Shape := ⟨4, ![1, 67, 1, 64]⟩
abbrev S4x67x4x64 : Shape := ⟨4, ![4, 67, 4, 64]⟩
abbrev S268x256 : Shape := ⟨2, ![268, 256]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x1x2 : Shape := ⟨4, ![1, 64, 1, 2]⟩
abbrev S4x64x4x2 : Shape := ⟨4, ![4, 64, 4, 2]⟩
abbrev S256x8 : Shape := ⟨2, ![256, 8]⟩
abbrev S1x64 : Shape := ⟨2, ![1, 64]⟩
abbrev S4x64 : Shape := ⟨2, ![4, 64]⟩
abbrev S256 : Shape := ⟨1, ![256]⟩
abbrev S1x2 : Shape := ⟨2, ![1, 2]⟩
abbrev S4x2 : Shape := ⟨2, ![4, 2]⟩
abbrev S8 : Shape := ⟨1, ![8]⟩
abbrev S500000x8 : Shape := ⟨2, ![500000, 8]⟩
abbrev S4000x268 : Shape := ⟨2, ![4000, 268]⟩
abbrev S4000x8 : Shape := ⟨2, ![4000, 8]⟩
abbrev S4000x256 : Shape := ⟨2, ![4000, 256]⟩
abbrev S1x256 : Shape := ⟨2, ![1, 256]⟩
abbrev S1x8 : Shape := ⟨2, ![1, 8]⟩
abbrev S2000000x2 : Shape := ⟨2, ![2000000, 2]⟩

abbrev nBuf : Space → Nat
  | .hbm => 139
  | .vmem => 12
  | .smem => 0
  | _ => 0

abbrev hbmTy0_0 (i : Nat) : BufTy := match i % 128 with
  | 0 => ⟨S100000x3, .f32⟩
  | 1 => ⟨S100000x64, .f32⟩
  | 2 => ⟨S100000x3, .f32⟩
  | 3 => ⟨S100000, .i32⟩
  | 4 => ⟨S2000000, .i32⟩
  | 5 => ⟨S2000000, .i32⟩
  | 6 => ⟨S67x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x2, .f32⟩
  | 13 => ⟨S2, .f32⟩
  | 14 => ⟨S100000x64, .bf16⟩
  | 15 => ⟨S_, .i32⟩
  | 16 => ⟨S2000000, .i32⟩
  | 17 => ⟨S2000000, .i1⟩
  | 18 => ⟨S_, .i32⟩
  | 19 => ⟨S2000000, .i32⟩
  | 20 => ⟨S2000000, .i32⟩
  | 21 => ⟨S2000000, .i32⟩
  | 22 => ⟨S2000000x1, .i32⟩
  | 23 => ⟨S2000000x64, .bf16⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S2000000x3, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x3, .f32⟩
  | 42 => ⟨S2000000x3, .f32⟩
  | 43 => ⟨S2000000x3, .bf16⟩
  | 44 => ⟨S2000000x67, .bf16⟩
  | 45 => ⟨S500000x268, .bf16⟩
  | 46 => ⟨S4x4, .i32⟩
  | 47 => ⟨S4x4, .i32⟩
  | 48 => ⟨S_, .i32⟩
  | 49 => ⟨S4x4, .i32⟩
  | 50 => ⟨S4x4, .i32⟩
  | 51 => ⟨S4x4, .i1⟩
  | 52 => ⟨S4x4, .f32⟩
  | 53 => ⟨S4x1x4x1, .f32⟩
  | 54 => ⟨S1x67x1x64, .f32⟩
  | 55 => ⟨S4x67x4x64, .f32⟩
  | 56 => ⟨S4x67x4x64, .f32⟩
  | 57 => ⟨S4x67x4x64, .f32⟩
  | 58 => ⟨S268x256, .f32⟩
  | 59 => ⟨S268x256, .bf16⟩
  | 60 => ⟨S4x4, .i32⟩
  | 61 => ⟨S4x4, .i32⟩
  | 62 => ⟨S_, .i32⟩
  | 63 => ⟨S4x4, .i32⟩
  | 64 => ⟨S4x4, .i32⟩
  | 65 => ⟨S4x4, .i1⟩
  | 66 => ⟨S4x4, .f32⟩
  | 67 => ⟨S4x1x4x1, .f32⟩
  | 68 => ⟨S1x64x1x64, .f32⟩
  | 69 => ⟨S4x64x4x64, .f32⟩
  | 70 => ⟨S4x64x4x64, .f32⟩
  | 71 => ⟨S4x64x4x64, .f32⟩
  | 72 => ⟨S256x256, .f32⟩
  | 73 => ⟨S256x256, .bf16⟩
  | 74 => ⟨S4x4, .i32⟩
  | 75 => ⟨S4x4, .i32⟩
  | 76 => ⟨S_, .i32⟩
  | 77 => ⟨S4x4, .i32⟩
  | 78 => ⟨S4x4, .i32⟩
  | 79 => ⟨S4x4, .i1⟩
  | 80 => ⟨S4x4, .f32⟩
  | 81 => ⟨S4x1x4x1, .f32⟩
  | 82 => ⟨S1x64x1x64, .f32⟩
  | 83 => ⟨S4x64x4x64, .f32⟩
  | 84 => ⟨S4x64x4x64, .f32⟩
  | 85 => ⟨S4x64x4x64, .f32⟩
  | 86 => ⟨S256x256, .f32⟩
  | 87 => ⟨S256x256, .bf16⟩
  | 88 => ⟨S4x4, .i32⟩
  | 89 => ⟨S4x4, .i32⟩
  | 90 => ⟨S_, .i32⟩
  | 91 => ⟨S4x4, .i32⟩
  | 92 => ⟨S4x4, .i32⟩
  | 93 => ⟨S4x4, .i1⟩
  | 94 => ⟨S4x4, .f32⟩
  | 95 => ⟨S4x1x4x1, .f32⟩
  | 96 => ⟨S1x64x1x2, .f32⟩
  | 97 => ⟨S4x64x4x2, .f32⟩
  | 98 => ⟨S4x64x4x2, .f32⟩
  | 99 => ⟨S4x64x4x2, .f32⟩
  | 100 => ⟨S256x8, .f32⟩
  | 101 => ⟨S256x8, .bf16⟩
  | 102 => ⟨S1x64, .f32⟩
  | 103 => ⟨S4x64, .f32⟩
  | 104 => ⟨S256, .f32⟩
  | 105 => ⟨S1x64, .f32⟩
  | 106 => ⟨S4x64, .f32⟩
  | 107 => ⟨S256, .f32⟩
  | 108 => ⟨S1x64, .f32⟩
  | 109 => ⟨S4x64, .f32⟩
  | 110 => ⟨S256, .f32⟩
  | 111 => ⟨S1x2, .f32⟩
  | 112 => ⟨S4x2, .f32⟩
  | 113 => ⟨S8, .f32⟩
  | 114 => ⟨S500000x8, .f32⟩
  | 115 => ⟨S2000000x2, .f32⟩
  | 116 => ⟨S_, .f32⟩
  | 117 => ⟨S2000000, .f32⟩
  | 118 => ⟨S_, .f32⟩
  | 119 => ⟨S2000000, .f32⟩
  | 120 => ⟨S2000000, .f32⟩
  | 121 => ⟨S2000000x1, .f32⟩
  | 122 => ⟨S2000000x2, .f32⟩
  | 123 => ⟨S2000000x2, .f32⟩
  | 124 => ⟨S2000000x2, .f32⟩
  | 125 => ⟨S_, .f32⟩
  | 126 => ⟨S2000000, .f32⟩
  | 127 => ⟨S2000000x1, .f32⟩
  | _ => ⟨S100000x3, .f32⟩

abbrev hbmTy0_1 (i : Nat) : BufTy := match i % 128 with
  | 0 => ⟨S2000000x2, .f32⟩
  | 1 => ⟨S2000000x2, .f32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000, .i32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S4000x268, .bf16⟩
  | .local _ .vmem, ⟨1, _⟩ => ⟨S4000x268, .bf16⟩
  | .local _ .vmem, ⟨2, _⟩ => ⟨S268x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x8, .bf16⟩
  | .local _ .vmem, ⟨9, _⟩ => ⟨S8, .f32⟩
  | .local _ .vmem, ⟨10, _⟩ => ⟨S4000x8, .f32⟩
  | .local _ .vmem, ⟨11, _⟩ => ⟨S4000x8, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_8 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst : Ref sig .tc := ⟨.hbm, 116, rfl⟩
abbrev main_v72 : Ref sig .tc := ⟨.hbm, 117, rfl⟩
abbrev main_cst_9 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_10 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_11 : Ref sig .tc := ⟨.hbm, 130, rfl⟩
abbrev main_v83 : Ref sig .tc := ⟨.hbm, 131, rfl⟩
abbrev main_v84 : Ref sig .tc := ⟨.hbm, 132, rfl⟩
abbrev main_c_12 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x268 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S268x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x3_S2000000x67_d1 : Shape.Concatenates [S2000000x64, S2000000x3] S2000000x67 1
  shapeCasts_S2000000x67_S500000x268 : S2000000x67.ShapeCasts S500000x268
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S67x64_S1x67x1x64_1_3 : S67x64.BroadcastsInDim S1x67x1x64 (![1, 3] : Fin 2 → Fin S1x67x1x64.rank)
  bcast_S4x1x4x1_S4x67x4x64_0_1_2_3 : S4x1x4x1.BroadcastsInDim S4x67x4x64 (![0, 1, 2, 3] : Fin 4 → Fin S4x67x4x64.rank)
  bcast_S1x67x1x64_S4x67x4x64_0_1_2_3 : S1x67x1x64.BroadcastsInDim S4x67x4x64 (![0, 1, 2, 3] : Fin 4 → Fin S4x67x4x64.rank)
  shapeCasts_S4x67x4x64_S268x256 : S4x67x4x64.ShapeCasts S268x256
  bcast_S64x64_S1x64x1x64_1_3 : S64x64.BroadcastsInDim S1x64x1x64 (![1, 3] : Fin 2 → Fin S1x64x1x64.rank)
  bcast_S4x1x4x1_S4x64x4x64_0_1_2_3 : S4x1x4x1.BroadcastsInDim S4x64x4x64 (![0, 1, 2, 3] : Fin 4 → Fin S4x64x4x64.rank)
  bcast_S1x64x1x64_S4x64x4x64_0_1_2_3 : S1x64x1x64.BroadcastsInDim S4x64x4x64 (![0, 1, 2, 3] : Fin 4 → Fin S4x64x4x64.rank)
  shapeCasts_S4x64x4x64_S256x256 : S4x64x4x64.ShapeCasts S256x256
  bcast_S64x2_S1x64x1x2_1_3 : S64x2.BroadcastsInDim S1x64x1x2 (![1, 3] : Fin 2 → Fin S1x64x1x2.rank)
  bcast_S4x1x4x1_S4x64x4x2_0_1_2_3 : S4x1x4x1.BroadcastsInDim S4x64x4x2 (![0, 1, 2, 3] : Fin 4 → Fin S4x64x4x2.rank)
  bcast_S1x64x1x2_S4x64x4x2_0_1_2_3 : S1x64x1x2.BroadcastsInDim S4x64x4x2 (![0, 1, 2, 3] : Fin 4 → Fin S4x64x4x2.rank)
  shapeCasts_S4x64x4x2_S256x8 : S4x64x4x2.ShapeCasts S256x8
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S2_S1x2 : S2.ShapeCasts S1x2
  bcast_S1x2_S4x2_0_1 : S1x2.BroadcastsInDim S4x2 (![0, 1] : Fin 2 → Fin S4x2.rank)
  shapeCasts_S4x2_S8 : S4x2.ShapeCasts S8
  inb_S4000x268_S4000x268_0_0 : ∀ a, (![0, 0] : Fin 2 → Nat) a + S4000x268.size a ≤ S4000x268.size a
  h_S4000x268 : 0 < S4000x268.numel
  shapeCasts_S4000x268_S4000x268 : S4000x268.ShapeCasts S4000x268
  inb_S268x256_S268x256_0_0 : ∀ a, (![0, 0] : Fin 2 → Nat) a + S268x256.size a ≤ S268x256.size a
  h_S268x256 : 0 < S268x256.numel
  shapeCasts_S268x256_S268x256 : S268x256.ShapeCasts S268x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S1x8 : S8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  shapeCasts_S500000x8_S2000000x2 : S500000x8.ShapeCasts S2000000x2
  reducesTo_S2000000x2_S2000000_d1 : S2000000x2.ReducesTo [1] S2000000
  h_S_ : 0 < S_.numel
  bcast_S2000000x1_S2000000x2_0_1 : S2000000x1.BroadcastsInDim S2000000x2 (![0, 1] : Fin 2 → Fin S2000000x2.rank)
  gather_S100000x64_S2000000x1_S2000000x64_1_0_n_n_0_1_164_wf : GatherDims.WF S100000x64 S2000000x1 S2000000x64 [1] [0] [] [0] [] 1 ![1, 64]
  gather_S100000x3_S2000000x1_S2000000x3_1_0_n_n_0_1_13_wf : GatherDims.WF S100000x3 S2000000x1 S2000000x3 [1] [0] [] [0] [] 1 ![1, 3]
  dot_S4000x268_S268x256_S4000x256_1_0_0_1_n_n_wf : DotDims.WF S4000x268 S268x256 S4000x256 [1] [0] [0] [1] [] []
  dot_S4000x256_S256x256_S4000x256_1_0_0_1_n_n_wf : DotDims.WF S4000x256 S256x256 S4000x256 [1] [0] [0] [1] [] []
  dot_S4000x256_S256x8_S4000x8_1_0_0_1_n_n_wf : DotDims.WF S4000x256 S256x8 S4000x8 [1] [0] [0] [1] [] []
  gather_S100000_S2000000x1_S2000000_n_0_n_n_0_1_1_wf : GatherDims.WF S100000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x268.size a ≤ S500000x268.size a
  hwx0_0 : ∀ i : grid0.Coords, EltTy.bits .bf16 = 32 ∨ (Rect.block (s := S500000x268) S4000x268.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S268x256.size a ≤ S268x256.size a
  hwx0_1 : ∀ i : grid0.Coords, EltTy.bits .bf16 = 32 ∨ (Rect.block (s := S268x256) S268x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x8.size a ≤ S256x8.size a
  hwx0_7 : ∀ i : grid0.Coords, EltTy.bits .bf16 = 32 ∨ (Rect.block (s := S256x8) S256x8.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x8.size a ≤ S500000x8.size a
  hwx0_9 : ∀ i : grid0.Coords, EltTy.bits .f32 = 32 ∨ (Rect.block (s := S500000x8) S4000x8.size (cc0_transform_9 i) (hinb0_9 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def dot_S4000x268_S268x256_S4000x256_1_0_0_1_n_n : DotDims S4000x268 S268x256 S4000x256 where
  lhsContracting := [1]
  rhsContracting := [0]
  lhsNonContracting := [0]
  rhsNonContracting := [1]
  lhsBatch := []
  rhsBatch := []
  wf := dot_S4000x268_S268x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x8_S4000x8_1_0_0_1_n_n : DotDims S4000x256 S256x8 S4000x8 where
  lhsContracting := [1]
  rhsContracting := [0]
  lhsNonContracting := [0]
  rhsNonContracting := [1]
  lhsBatch := []
  rhsBatch := []
  wf := dot_S4000x256_S256x8_S4000x8_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

abbrev win0_0 : Pipeline.Window sig grid0 :=
  Pipeline.Window.ofSpec (Memref.whole main_v25) S4000x268.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S268x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S256x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v69) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S4000x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x64 : Shape := ⟨2, ![100000, 64]⟩
abbrev S100000 : Shape := ⟨1, ![100000]⟩
abbrev S2000000 : Shape := ⟨1, ![2000000]⟩
abbrev S67x64 : Shape := ⟨2, ![67, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S2000000x1 : Shape := ⟨2, ![2000000, 1]⟩
abbrev S2000000x3 : Shape := ⟨2, ![2000000, 3]⟩
abbrev S2000000x64 : Shape := ⟨2, ![2000000, 64]⟩
abbrev S2000000x67 : Shape := ⟨2, ![2000000, 67]⟩
abbrev S1x64 : Shape := ⟨2, ![1, 64]⟩
abbrev S2000000x2 : Shape := ⟨2, ![2000000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x64, .f32⟩
  | .hbm, ⟨2, _⟩ => ⟨S100000x3, .f32⟩
  | .hbm, ⟨3, _⟩ => ⟨S100000, .i32⟩
  | .hbm, ⟨4, _⟩ => ⟨S2000000, .i32⟩
  | .hbm, ⟨5, _⟩ => ⟨S2000000, .i32⟩
  | .hbm, ⟨6, _⟩ => ⟨S67x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x3, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000x3, .f32⟩
  | .hbm, ⟨32, _⟩ => ⟨S2000000x3, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000x64, .f32⟩
  | .hbm, ⟨42, _⟩ => ⟨S2000000x67, .f32⟩
  | .hbm, ⟨43, _⟩ => ⟨S2000000x64, .f32⟩
  | .hbm, ⟨44, _⟩ => ⟨S1x64, .f32⟩
  | .hbm, ⟨45, _⟩ => ⟨S2000000x64, .f32⟩
  | .hbm, ⟨46, _⟩ => ⟨S2000000x64, .f32⟩
  | .hbm, ⟨47, _⟩ => ⟨S_, .f32⟩
  | .hbm, ⟨48, _⟩ => ⟨S2000000x64, .f32⟩
  | .hbm, ⟨49, _⟩ => ⟨S2000000x64, .f32⟩
  | .hbm, ⟨50, _⟩ => ⟨S2000000x64, .f32⟩
  | .hbm, ⟨51, _⟩ => ⟨S1x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S1x64, .f32⟩
  | .hbm, ⟨59, _⟩ => ⟨S2000000x64, .f32⟩
  | .hbm, ⟨60, _⟩ => ⟨S2000000x64, .f32⟩
  | .hbm, ⟨61, _⟩ => ⟨S2000000x2, .f32⟩
  | .hbm, ⟨62, _⟩ => ⟨S1x2, .f32⟩
  | .hbm, ⟨63, _⟩ => ⟨S2000000x2, .f32⟩
  | .hbm, ⟨64, _⟩ => ⟨S2000000x2, .f32⟩
  | .hbm, ⟨65, _⟩ => ⟨S_, .f32⟩
  | .hbm, ⟨66, _⟩ => ⟨S2000000, .f32⟩
  | .hbm, ⟨67, _⟩ => ⟨S_, .f32⟩
  | .hbm, ⟨68, _⟩ => ⟨S2000000, .f32⟩
  | .hbm, ⟨69, _⟩ => ⟨S2000000, .f32⟩
  | .hbm, ⟨70, _⟩ => ⟨S2000000x1, .f32⟩
  | .hbm, ⟨71, _⟩ => ⟨S2000000x2, .f32⟩
  | .hbm, ⟨72, _⟩ => ⟨S2000000x2, .f32⟩
  | .hbm, ⟨73, _⟩ => ⟨S2000000x2, .f32⟩
  | .hbm, ⟨74, _⟩ => ⟨S_, .f32⟩
  | .hbm, ⟨75, _⟩ => ⟨S2000000, .f32⟩
  | .hbm, ⟨76, _⟩ => ⟨S2000000x1, .f32⟩
  | .hbm, ⟨77, _⟩ => ⟨S2000000x2, .f32⟩
  | .hbm, ⟨78, _⟩ => ⟨S2000000x2, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S2000000, .i32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_7 : Ref sig .tc := ⟨.hbm, 79, rfl⟩
abbrev main_v52 : Ref sig .tc := ⟨.hbm, 80, rfl⟩
abbrev main_v53 : Ref sig .tc := ⟨.hbm, 81, rfl⟩
abbrev main_c_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x3_S2000000x67_d1 : Shape.Concatenates [S2000000x64, S2000000x3] S2000000x67 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  reducesTo_S2000000x2_S2000000_d1 : S2000000x2.ReducesTo [1] S2000000
  h_S_ : 0 < S_.numel
  bcast_S2000000x1_S2000000x2_0_1 : S2000000x1.BroadcastsInDim S2000000x2 (![0, 1] : Fin 2 → Fin S2000000x2.rank)
  gather_S100000x3_S2000000x1_S2000000x3_1_0_n_n_0_1_13_wf : GatherDims.WF S100000x3 S2000000x1 S2000000x3 [1] [0] [] [0] [] 1 ![1, 3]
  gather_S100000x64_S2000000x1_S2000000x64_1_0_n_n_0_1_164_wf : GatherDims.WF S100000x64 S2000000x1 S2000000x64 [1] [0] [] [0] [] 1 ![1, 64]
  dot_S2000000x67_S67x64_S2000000x64_1_0_0_1_n_n_wf : DotDims.WF S2000000x67 S67x64 S2000000x64 [1] [0] [0] [1] [] []
  dot_S2000000x64_S64x64_S2000000x64_1_0_0_1_n_n_wf : DotDims.WF S2000000x64 S64x64 S2000000x64 [1] [0] [0] [1] [] []
  dot_S2000000x64_S64x2_S2000000x2_1_0_0_1_n_n_wf : DotDims.WF S2000000x64 S64x2 S2000000x2 [1] [0] [0] [1] [] []
  gather_S100000_S2000000x1_S2000000_n_0_n_n_0_1_1_wf : GatherDims.WF S100000 S2000000x1 S2000000 [] [0] [] [0] [] 1 ![1]

variable [Facts₀]

def gather_S100000x3_S2000000x1_S2000000x3_1_0_n_n_0_1_13 : GatherDims S100000x3 S2000000x1 S2000000x3 where
  offsetDims := [1]
  collapsedSliceDims := [0]
  operandBatchingDims := []
  startIndicesBatchingDims := []
  startIndexMap := [0]
  indexVectorDim := 1
  sliceSizes := ![1, 3]
  wf := gather_S100000x3_S2000000x1_S2000000x3_1_0_n_n_0_1_13_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000000x67_S67x64_S2000000x64_1_0_0_1_n_n : DotDims S2000000x67 S67x64 S2000000x64 where
  lhsContracting := [1]
  rhsContracting := [0]
  lhsNonContracting := [0]
  rhsNonContracting := [1]
  lhsBatch := []
  rhsBatch := []
  wf := dot_S2000000x67_S67x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x64_S64x2_S2000000x2_1_0_0_1_n_n : DotDims S2000000x64 S64x2 S2000000x2 where
  lhsContracting := [1]
  rhsContracting := [0]
  lhsNonContracting := [0]
  rhsNonContracting := [1]
  lhsBatch := []
  rhsBatch := []
  wf := dot_S2000000x64_S64x2_S2000000x2_1_0_0_1_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf

class Facts : Prop extends Facts₀ where

variable [Facts]
-- ==== Proof.BlockDiagonal.lean ====
/-
  The one algebraic law of this certificate, over the extended reals.

  Four consecutive rows of a K-column matrix are laid side by side as one row of 4·K entries, and that packed
  row is multiplied by the block-diagonal matrix whose four diagonal blocks are all one K-column matrix w and
  whose other blocks are zero (the Kronecker product of the 4 × 4 identity with w).  In segment s of the
  product only the entries of segment s of the packed row meet a block that is not zero, so the packed product
  at (segment s, column n) is the ordinary product of row s with column n of w.

  On the extended reals this needs no finiteness: 0 · x = 0 and 1 · x = x hold for every x, infinite ones
  included, and the rest is a re-indexing of a finite sum (addition is commutative and associative).
-/
import Idealize.ShloMosaic.PureOps.Ideal.Laws

namespace Cert.BlockDiagonal

open scoped BigOperators

/-- Position f of segment s lies inside a packed row of 4 · K entries. -/
theorem seg_lt {K : ℕ} (s : Fin 4) (f : Fin K) : K * s.val + f.val < 4 * K := by
  have h1 : K * (s.val + 1) ≤ K * 4 := Nat.mul_le_mul_left K (Nat.succ_le_of_lt s.isLt)
  rw [Nat.mul_succ] at h1
  have := f.isLt
  omega

/-- A packed row x of M = 4 · K entries against one column r of a block-diagonal matrix: if r, on segment s',
    is the column w of the repeated block when s' = s and zero otherwise, the product is the product of
    segment s of x (named a) with w. Only segment s of x is ever looked at. -/
theorem sum_blockdiag {M K : ℕ} (hM : M = 4 * K) (x r : Fin M → EReal) (a w : Fin K → EReal) (s : Fin 4)
    (hx : ∀ f : Fin K, x ⟨K * s.val + f.val, hM ▸ seg_lt s f⟩ = a f)
    (hr : ∀ (s' : Fin 4) (f : Fin K),
      r ⟨K * s'.val + f.val, hM ▸ seg_lt s' f⟩ = (if s' = s then (1 : EReal) else 0) * w f) :
    ∑ k : Fin M, x k * r k = ∑ f : Fin K, a f * w f := by
  subst hM
  have he : ∀ (s' : Fin 4) (f : Fin K),
      (finProdFinEquiv (m := 4) (n := K)) (s', f) = ⟨K * s'.val + f.val, seg_lt s' f⟩ := by
    intro s' f
    apply Fin.ext
    show f.val + K * s'.val = K * s'.val + f.val
    omega
  rw [← (finProdFinEquiv (m := 4) (n := K)).sum_comp (fun k => x k * r k), Fintype.sum_prod_type]
  simp only [he]
  rw [Finset.sum_eq_single s]
  · exact Finset.sum_congr rfl fun f _ => by rw [hx f, hr s f, if_pos rfl, one_mul]
  · intro s' _ hne
    exact Finset.sum_eq_zero fun f _ => by rw [hr s' f, if_neg hne, zero_mul, mul_zero]
  · intro h
    exact absurd (Finset.mem_univ s) h

/-- Every position of a packed row of 4 · K entries is position f of some segment s. -/
theorem exists_seg {M K : ℕ} (hM : M = 4 * K) (hK : 0 < K) (k : Fin M) :
    ∃ (s : Fin 4) (f : Fin K), k = ⟨K * s.val + f.val, hM ▸ seg_lt s f⟩ := by
  subst hM
  have hk := k.isLt
  refine ⟨⟨k.val / K, ?_⟩, ⟨k.val % K, Nat.mod_lt _ hK⟩, Fin.ext ?_⟩
  · exact (Nat.div_lt_iff_lt_mul hK).mpr hk
  · show k.val = K * (k.val / K) + k.val % K
    exact (Nat.div_add_mod k.val K).symm

/-! ## Positions in this kernel's packed rows

The kernel packs four consecutive edges into one row. -/

/-- Position f of segment s in a packed row of 4 · 67 input features. -/
abbrev seg268 (s : Fin 4) (f : Fin 67) : Fin 268 := ⟨67 * s.val + f.val, by omega⟩
/-- Position n of segment s in a packed row of 4 · 64 hidden features. -/
abbrev seg256 (s : Fin 4) (n : Fin 64) : Fin 256 := ⟨64 * s.val + n.val, by omega⟩
/-- Position o of segment s in a packed row of 4 · 2 logits. -/
abbrev seg8 (s : Fin 4) (o : Fin 2) : Fin 8 := ⟨2 * s.val + o.val, by omega⟩
/-- The edge that segment s of packed row R holds. -/
abbrev edge (R : Fin 500000) (s : Fin 4) : Fin 2000000 := ⟨4 * R.val + s.val, by omega⟩

end Cert.BlockDiagonal
-- ==== Proof.BlockOps.lean ====
/-
  The kernel body's three block products and its two bias rows, read at one entry (at the ideal values).

  Each product is a 4000-row block times a whole weight matrix, accumulated into zeros: entry (p, q) is the sum
  over the contracted index k of lhs (p, k) · rhs (k, q). Each bias is a vector laid out as one row and repeated
  over the 4000 rows of the block: entry (p, q) is the vector's entry q.
-/
import proofs.«178233_j16681652977700_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.BlockOps

open Cert.KernelIdeal Cert.KernelIdeal.Gen Idealize.ShloMosaic Idealize.ShloMosaic.ValueIdx
open scoped BigOperators

/-! ## The products: which operand entries meet at output entry (p, q) and contraction index k -/

theorem matmul_in_apply_l0 (i : S4000x256.Idx) (q : dot_S4000x268_S268x256_S4000x256_1_0_0_1_n_n.contr.Idx) : (dot_S4000x268_S268x256_S4000x256_1_0_0_1_n_n.lhsIdx i q 0).val = (i 0).val := by
  unfold DotDims.lhsIdx
  rw [dif_neg (show ¬(0 : Fin S4000x268.rank) ∈ dot_S4000x268_S268x256_S4000x256_1_0_0_1_n_n.lhsBatch by decide),
    dif_pos (show (0 : Fin S4000x268.rank) ∈ dot_S4000x268_S268x256_S4000x256_1_0_0_1_n_n.lhsNonContracting by decide)]
  rfl
theorem matmul_in_apply_l1 (i : S4000x256.Idx) (q : dot_S4000x268_S268x256_S4000x256_1_0_0_1_n_n.contr.Idx) : (dot_S4000x268_S268x256_S4000x256_1_0_0_1_n_n.lhsIdx i q 1).val = (q ⟨0, by decide⟩).val :=
  dot_S4000x268_S268x256_S4000x256_1_0_0_1_n_n.lhsIdx_val_of_single rfl i q
theorem matmul_in_apply_r0 (i : S4000x256.Idx) (q : dot_S4000x268_S268x256_S4000x256_1_0_0_1_n_n.contr.Idx) : (dot_S4000x268_S268x256_S4000x256_1_0_0_1_n_n.rhsIdx i q 0).val = (q ⟨0, by decide⟩).val :=
  dot_S4000x268_S268x256_S4000x256_1_0_0_1_n_n.rhsIdx_val_of_single rfl i q
theorem matmul_in_apply_r1 (i : S4000x256.Idx) (q : dot_S4000x268_S268x256_S4000x256_1_0_0_1_n_n.contr.Idx) : (dot_S4000x268_S268x256_S4000x256_1_0_0_1_n_n.rhsIdx i q 1).val = (i 1).val := by
  unfold DotDims.rhsIdx
  rw [dif_neg (show ¬(1 : Fin S268x256.rank) ∈ dot_S4000x268_S268x256_S4000x256_1_0_0_1_n_n.rhsBatch by decide),
    dif_pos (show (1 : Fin S268x256.rank) ∈ dot_S4000x268_S268x256_S4000x256_1_0_0_1_n_n.rhsNonContracting by decide)]
  rfl

/-- The first layer's product, 4000 × 268 by 268 × 256, at entry (p, q). -/
theorem matmul_in_apply (lhs : FVec Ideal S4000x268 .bf16) (rhs : FVec Ideal S268x256 .bf16) (p : Fin 4000) (q : Fin 256) :
    matmul (F := Ideal) dot_S4000x268_S268x256_S4000x256_1_0_0_1_n_n none lhs rhs (constant S4000x256 .f32 0x00000000#32) (ix2 p q)
      = ∑ k : Fin 268, lhs (ix2 p k) * rhs (ix2 k q) := by
  simp only [matmul]
  rw [Ideal.matmul_constant_zero_apply, ← Equiv.sum_comp (contrEquiv1 dot_S4000x268_S268x256_S4000x256_1_0_0_1_n_n 268 rfl rfl).symm]
  refine Finset.sum_congr rfl fun k _ => ?_
  have hk := contrEquiv1_symm_val dot_S4000x268_S268x256_S4000x256_1_0_0_1_n_n 268 rfl rfl k
  have el : dot_S4000x268_S268x256_S4000x256_1_0_0_1_n_n.lhsIdx (ix2 p q) ((contrEquiv1 dot_S4000x268_S268x256_S4000x256_1_0_0_1_n_n 268 rfl rfl).symm k) = ix2 p k :=
    funext fun a => Fin.ext (by
      match a with
      | ⟨0, _⟩ => exact matmul_in_apply_l0 _ _
      | ⟨1, _⟩ => exact (matmul_in_apply_l1 _ _).trans hk)
  have er : dot_S4000x268_S268x256_S4000x256_1_0_0_1_n_n.rhsIdx (ix2 p q) ((contrEquiv1 dot_S4000x268_S268x256_S4000x256_1_0_0_1_n_n 268 rfl rfl).symm k) = ix2 k q :=
    funext fun a => Fin.ext (by
      match a with
      | ⟨0, _⟩ => exact (matmul_in_apply_r0 _ _).trans hk
      | ⟨1, _⟩ => exact matmul_in_apply_r1 _ _)
  rw [el, er]

theorem matmul_hidden_apply_l0 (i : S4000x256.Idx) (q : dot_S4000x256_S256x256_S4000x256_1_0_0_1_n_n.contr.Idx) : (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl
theorem matmul_hidden_apply_l1 (i : S4000x256.Idx) (q : dot_S4000x256_S256x256_S4000x256_1_0_0_1_n_n.contr.Idx) : (dot_S4000x256_S256x256_S4000x256_1_0_0_1_n_n.lhsIdx i q 1).val = (q ⟨0, by decide⟩).val :=
  dot_S4000x256_S256x256_S4000x256_1_0_0_1_n_n.lhsIdx_val_of_single rfl i q
theorem matmul_hidden_apply_r0 (i : S4000x256.Idx) (q : dot_S4000x256_S256x256_S4000x256_1_0_0_1_n_n.contr.Idx) : (dot_S4000x256_S256x256_S4000x256_1_0_0_1_n_n.rhsIdx i q 0).val = (q ⟨0, by decide⟩).val :=
  dot_S4000x256_S256x256_S4000x256_1_0_0_1_n_n.rhsIdx_val_of_single rfl i q
theorem matmul_hidden_apply_r1 (i : S4000x256.Idx) (q : dot_S4000x256_S256x256_S4000x256_1_0_0_1_n_n.contr.Idx) : (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- A hidden layer's product, 4000 × 256 by 256 × 256, at entry (p, q). -/
theorem matmul_hidden_apply (lhs : FVec Ideal S4000x256 .bf16) (rhs : FVec Ideal S256x256 .bf16) (p : Fin 4000) (q : Fin 256) :
    matmul (F := Ideal) dot_S4000x256_S256x256_S4000x256_1_0_0_1_n_n none lhs rhs (constant S4000x256 .f32 0x00000000#32) (ix2 p q)
      = ∑ k : Fin 256, lhs (ix2 p k) * rhs (ix2 k q) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k :=
    funext fun a => Fin.ext (by
      match a with
      | ⟨0, _⟩ => exact matmul_hidden_apply_l0 _ _
      | ⟨1, _⟩ => exact (matmul_hidden_apply_l1 _ _).trans hk)
  have er : dot_S4000x256_S256x256_S4000x256_1_0_0_1_n_n.rhsIdx (ix2 p q) ((contrEquiv1 dot_S4000x256_S256x256_S4000x256_1_0_0_1_n_n 256 rfl rfl).symm k) = ix2 k q :=
    funext fun a => Fin.ext (by
      match a with
      | ⟨0, _⟩ => exact (matmul_hidden_apply_r0 _ _).trans hk
      | ⟨1, _⟩ => exact matmul_hidden_apply_r1 _ _)
  rw [el, er]

theorem matmul_out_apply_l0 (i : S4000x8.Idx) (q : dot_S4000x256_S256x8_S4000x8_1_0_0_1_n_n.contr.Idx) : (dot_S4000x256_S256x8_S4000x8_1_0_0_1_n_n.lhsIdx i q 0).val = (i 0).val := by
  unfold DotDims.lhsIdx
  rw [dif_neg (show ¬(0 : Fin S4000x256.rank) ∈ dot_S4000x256_S256x8_S4000x8_1_0_0_1_n_n.lhsBatch by decide),
    dif_pos (show (0 : Fin S4000x256.rank) ∈ dot_S4000x256_S256x8_S4000x8_1_0_0_1_n_n.lhsNonContracting by decide)]
  rfl
theorem matmul_out_apply_l1 (i : S4000x8.Idx) (q : dot_S4000x256_S256x8_S4000x8_1_0_0_1_n_n.contr.Idx) : (dot_S4000x256_S256x8_S4000x8_1_0_0_1_n_n.lhsIdx i q 1).val = (q ⟨0, by decide⟩).val :=
  dot_S4000x256_S256x8_S4000x8_1_0_0_1_n_n.lhsIdx_val_of_single rfl i q
theorem matmul_out_apply_r0 (i : S4000x8.Idx) (q : dot_S4000x256_S256x8_S4000x8_1_0_0_1_n_n.contr.Idx) : (dot_S4000x256_S256x8_S4000x8_1_0_0_1_n_n.rhsIdx i q 0).val = (q ⟨0, by decide⟩).val :=
  dot_S4000x256_S256x8_S4000x8_1_0_0_1_n_n.rhsIdx_val_of_single rfl i q
theorem matmul_out_apply_r1 (i : S4000x8.Idx) (q : dot_S4000x256_S256x8_S4000x8_1_0_0_1_n_n.contr.Idx) : (dot_S4000x256_S256x8_S4000x8_1_0_0_1_n_n.rhsIdx i q 1).val = (i 1).val := by
  unfold DotDims.rhsIdx
  rw [dif_neg (show ¬(1 : Fin S256x8.rank) ∈ dot_S4000x256_S256x8_S4000x8_1_0_0_1_n_n.rhsBatch by decide),
    dif_pos (show (1 : Fin S256x8.rank) ∈ dot_S4000x256_S256x8_S4000x8_1_0_0_1_n_n.rhsNonContracting by decide)]
  rfl

/-- The last layer's product, 4000 × 256 by 256 × 8, at entry (p, q). -/
theorem matmul_out_apply (lhs : FVec Ideal S4000x256 .bf16) (rhs : FVec Ideal S256x8 .bf16) (p : Fin 4000) (q : Fin 8) :
    matmul (F := Ideal) dot_S4000x256_S256x8_S4000x8_1_0_0_1_n_n none lhs rhs (constant S4000x8 .f32 0x00000000#32) (ix2 p q)
      = ∑ k : Fin 256, lhs (ix2 p k) * rhs (ix2 k q) := by
  simp only [matmul]
  rw [Ideal.matmul_constant_zero_apply, ← Equiv.sum_comp (contrEquiv1 dot_S4000x256_S256x8_S4000x8_1_0_0_1_n_n 256 rfl rfl).symm]
  refine Finset.sum_congr rfl fun k _ => ?_
  have hk := contrEquiv1_symm_val dot_S4000x256_S256x8_S4000x8_1_0_0_1_n_n 256 rfl rfl k
  have el : dot_S4000x256_S256x8_S4000x8_1_0_0_1_n_n.lhsIdx (ix2 p q) ((contrEquiv1 dot_S4000x256_S256x8_S4000x8_1_0_0_1_n_n 256 rfl rfl).symm k) = ix2 p k :=
    funext fun a => Fin.ext (by
      match a with
      | ⟨0, _⟩ => exact matmul_out_apply_l0 _ _
      | ⟨1, _⟩ => exact (matmul_out_apply_l1 _ _).trans hk)
  have er : dot_S4000x256_S256x8_S4000x8_1_0_0_1_n_n.rhsIdx (ix2 p q) ((contrEquiv1 dot_S4000x256_S256x8_S4000x8_1_0_0_1_n_n 256 rfl rfl).symm k) = ix2 k q :=
    funext fun a => Fin.ext (by
      match a with
      | ⟨0, _⟩ => exact (matmul_out_apply_r0 _ _).trans hk
      | ⟨1, _⟩ => exact matmul_out_apply_r1 _ _)
  rw [el, er]

/-! ## The biases -/

/-- A 256-entry bias laid out as one row and repeated over the block's 4000 rows reads its entry q. -/
theorem bias256_apply (b : Vec Ideal S256 .f32) (p : Fin 4000) (q : Fin 256) :
    broadcastTo S4000x256 (shapeCast S1x256 b shapeCasts_S256_S1x256) broadcasts_S1x256_S4000x256 (ix2 p q)
      = b (ix1 q) :=
  (broadcastTo_1b_ab_apply _ _ p q).trans (shapeCast_a_1a_apply b _ 0 q)

/-- An 8-entry bias laid out as one row and repeated over the block's 4000 rows reads its entry q. -/
theorem bias8_apply (b : Vec Ideal S8 .f32) (p : Fin 4000) (q : Fin 8) :
    broadcastTo S4000x8 (shapeCast S1x8 b shapeCasts_S8_S1x8) broadcasts_S1x8_S4000x8 (ix2 p q)
      = b (ix1 q) :=
  (broadcastTo_1b_ab_apply _ _ p q).trans (shapeCast_a_1a_apply b _ 0 q)

end Cert.KernelIdeal.BlockOps

end
-- ==== Proof.RefLayers.lean ====
/-
  The reference's multilayer perceptron read one entry at a time (at the ideal values).

  The reference keeps one row per edge. Each of its four affine layers, at row e and output column n, is the sum
  over the input columns k of (the layer's input at (e, k)) · (the weight at (k, n)), plus the bias at n; after the
  first two layers each entry is replaced by its maximum with zero.
-/
import proofs.«178233_j16681652977700_2_alg».proof.Proof.Gen.ReferenceIdeal.Read
import Idealize.ShloMosaic.Lib.ValueIdx
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx
open scoped BigOperators

variable (x0 : (⟨S100000x3, .f32⟩ : BufTy).Contents (Elt Ideal)) (x1 : (⟨S100000x64, .f32⟩ : BufTy).Contents (Elt Ideal)) (x2 : (⟨S100000x3, .f32⟩ : BufTy).Contents (Elt Ideal))
  (x4 x5 : (⟨S2000000, .i32⟩ : BufTy).Contents (Elt Ideal)) (x6 : (⟨S67x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))
  (x12 : (⟨S64x2, .f32⟩ : BufTy).Contents (Elt Ideal)) (x13 : (⟨S2, .f32⟩ : BufTy).Contents (Elt Ideal))

/-- The zero the reference's rectifier compares with. -/
abbrev zero32 : EReal := Ideal.ofBits .f32 0x00000000#32

/-- First affine layer: the gathered 67-column features times the 67 × 64 weights, plus the bias. -/
theorem affine1_apply (e : Fin 2000000) (n : Fin 64) :
    val_main_v26 (F := Ideal) x0 x1 x2 x4 x5 x6 x7 (ix2 e n)
      = (∑ k : Fin 67, val_main_v22 (F := Ideal) x0 x1 x2 x4 x5 (ix2 e k) * x6 (ix2 k n)) + x7 (ix1 n) := by
  rw [val_main_v26_apply, val_main_v23_apply, val_main_v25_apply, val_main_v24_apply]
  have hl : ∀ k : Fin 67, lidx_main_v23 (ix2 e n) k = ix2 e k := fun k =>
    funext fun a => Fin.ext (by match a with | ⟨0, _⟩ => rfl | ⟨1, _⟩ => rfl)
  have hr : ∀ k : Fin 67, ridx_main_v23 (ix2 e n) k = ix2 k n := fun k =>
    funext fun a => Fin.ext (by match a with | ⟨0, _⟩ => rfl | ⟨1, _⟩ => rfl)
  have hb : idx_main_v24 (idx_main_v25 (ix2 e n)) = ix1 n :=
    funext fun a => Fin.ext (by match a with | ⟨0, _⟩ => rfl)
  simp only [hl, hr, hb]
  rfl

/-- The rectifier after the first layer. -/
theorem relu1_apply (e : Fin 2000000) (n : Fin 64) :
    val_main_v27 (F := Ideal) x0 x1 x2 x4 x5 x6 x7 (ix2 e n) = max (val_main_v26 (F := Ideal) x0 x1 x2 x4 x5 x6 x7 (ix2 e n)) zero32 := by
  rw [val_main_v27_apply, val_main_call0_v0_apply, val_main_call0_cst_apply]
  rfl

/-- Second affine layer: 64 × 64 weights. -/
theorem affine2_apply (e : Fin 2000000) (n : Fin 64) :
    val_main_v31 (F := Ideal) x0 x1 x2 x4 x5 x6 x7 x8 x9 (ix2 e n)
      = (∑ k : Fin 64, val_main_v27 (F := Ideal) x0 x1 x2 x4 x5 x6 x7 (ix2 e k) * x8 (ix2 k n)) + x9 (ix1 n) := by
  rw [val_main_v31_apply, val_main_v28_apply, val_main_v30_apply, val_main_v29_apply]
  have hl : ∀ k : Fin 64, lidx_main_v28 (ix2 e n) k = ix2 e k := fun k =>
    funext fun a => Fin.ext (by match a with | ⟨0, _⟩ => rfl | ⟨1, _⟩ => rfl)
  have hr : ∀ k : Fin 64, ridx_main_v28 (ix2 e n) k = ix2 k n := fun k =>
    funext fun a => Fin.ext (by match a with | ⟨0, _⟩ => rfl | ⟨1, _⟩ => rfl)
  have hb : idx_main_v29 (idx_main_v30 (ix2 e n)) = ix1 n :=
    funext fun a => Fin.ext (by match a with | ⟨0, _⟩ => rfl)
  simp only [hl, hr, hb]
  rfl

/-- The rectifier after the second layer. -/
theorem relu2_apply (e : Fin 2000000) (n : Fin 64) :
    val_main_v32 (F := Ideal) x0 x1 x2 x4 x5 x6 x7 x8 x9 (ix2 e n) = max (val_main_v31 (F := Ideal) x0 x1 x2 x4 x5 x6 x7 x8 x9 (ix2 e n)) zero32 := by
  rw [val_main_v32_apply, val_main_call1_v0_apply, val_main_call1_cst_apply]
  rfl

/-- Third affine layer: 64 × 64 weights, no rectifier after it. -/
theorem affine3_apply (e : Fin 2000000) (n : Fin 64) :
    val_main_v36 (F := Ideal) x0 x1 x2 x4 x5 x6 x7 x8 x9 x10 x11 (ix2 e n)
      = (∑ k : Fin 64, val_main_v32 (F := Ideal) x0 x1 x2 x4 x5 x6 x7 x8 x9 (ix2 e k) * x10 (ix2 k n)) + x11 (ix1 n) := by
  rw [val_main_v36_apply, val_main_v33_apply, val_main_v35_apply, val_main_v34_apply]
  have hl : ∀ k : Fin 64, lidx_main_v33 (ix2 e n) k = ix2 e k := fun k =>
    funext fun a => Fin.ext (by match a with | ⟨0, _⟩ => rfl | ⟨1, _⟩ => rfl)
  have hr : ∀ k : Fin 64, ridx_main_v33 (ix2 e n) k = ix2 k n := fun k =>
    funext fun a => Fin.ext (by match a with | ⟨0, _⟩ => rfl | ⟨1, _⟩ => rfl)
  have hb : idx_main_v34 (idx_main_v35 (ix2 e n)) = ix1 n :=
    funext fun a => Fin.ext (by match a with | ⟨0, _⟩ => rfl)
  simp only [hl, hr, hb]
  rfl

/-- Output layer: 64 × 2 weights; its entries are the logits. -/
theorem affine4_apply (e : Fin 2000000) (o : Fin 2) :
    val_main_v40 (F := Ideal) x0 x1 x2 x4 x5 x6 x7 x8 x9 x10 x11 x12 x13 (ix2 e o)
      = (∑ k : Fin 64, val_main_v36 (F := Ideal) x0 x1 x2 x4 x5 x6 x7 x8 x9 x10 x11 (ix2 e k) * x12 (ix2 k o)) + x13 (ix1 o) := by
  rw [val_main_v40_apply, val_main_v37_apply, val_main_v39_apply, val_main_v38_apply]
  have hl : ∀ k : Fin 64, lidx_main_v37 (ix2 e o) k = ix2 e k := fun k =>
    funext fun a => Fin.ext (by match a with | ⟨0, _⟩ => rfl | ⟨1, _⟩ => rfl)
  have hr : ∀ k : Fin 64, ridx_main_v37 (ix2 e o) k = ix2 k o := fun k =>
    funext fun a => Fin.ext (by match a with | ⟨0, _⟩ => rfl | ⟨1, _⟩ => rfl)
  have hb : idx_main_v38 (idx_main_v39 (ix2 e o)) = ix1 o :=
    funext fun a => Fin.ext (by match a with | ⟨0, _⟩ => rfl)
  simp only [hl, hr, hb]
  rfl

end Cert.ReferenceIdeal.Layers

end
-- ==== Proof.PackedBody.lean ====
/-
  What the kernel body computes, one packed row at a time (at the ideal values).

  The body multiplies a block of packed rows (four edges per row) by block-diagonal weights four times, adding a
  repeated bias each time and taking the maximum with zero after the first two. By the block-diagonal law each
  packed layer is, segment by segment, the reference's layer on the edge the segment holds; so entry
  (segment s, class o) of a packed output row R is the reference's logit of edge 4 · R + s and class o.
-/
import proofs.«178233_j16681652977700_2_alg».proof.Proof.Gen.KernelIdeal.Skeleton
import proofs.«178233_j16681652977700_2_alg».proof.Proof.BlockDiagonal
import proofs.«178233_j16681652977700_2_alg».proof.Proof.BlockOps
import proofs.«178233_j16681652977700_2_alg».proof.Proof.RefLayers

noncomputable section

namespace Cert.KernelIdeal.PackedBody

open Cert.KernelIdeal Cert.KernelIdeal.Gen Idealize.ShloMosaic Idealize.ShloMosaic.ValueIdx Cert.BlockDiagonal
open Cert.ReferenceIdeal.Read Cert.ReferenceIdeal.Layers
open scoped BigOperators

/-! ## One packed affine layer, at one segment and column -/

/-- First layer: 268 packed inputs against block-diagonal 268 × 256 weights. -/
theorem affine_in (lhs : FVec Ideal S4000x268 .bf16) (rhs : FVec Ideal S268x256 .bf16) (b : Vec Ideal S256 .f32)
    (p : Fin 4000) (s : Fin 4) (n : Fin 64) (a w : Fin 67 → EReal) (β : EReal)
    (ha : ∀ f : Fin 67, lhs (ix2 p (seg268 s f)) = a f)
    (hw : ∀ (s' : Fin 4) (f : Fin 67), rhs (ix2 (seg268 s' f) (seg256 s n)) = (if s' = s then (1 : EReal) else 0) * w f)
    (hb : b (ix1 (seg256 s n)) = β) :
    addf (matmul (F := Ideal) dot_S4000x268_S268x256_S4000x256_1_0_0_1_n_n none lhs rhs (constant S4000x256 .f32 0x00000000#32))
      (broadcastTo S4000x256 (shapeCast S1x256 b shapeCasts_S256_S1x256) broadcasts_S1x256_S4000x256) (ix2 p (seg256 s n))
      = (∑ f : Fin 67, a f * w f) + β := by
  refine (addf_apply _ _ _).trans ?_
  rw [BlockOps.matmul_in_apply, BlockOps.bias256_apply, hb]
  exact congrArg (· + β) (sum_blockdiag (M := 268) (K := 67) rfl (fun k => lhs (ix2 p k))
    (fun k => rhs (ix2 k (seg256 s n))) a w s ha hw)

/-- A hidden layer: 256 packed inputs against block-diagonal 256 × 256 weights. -/
theorem affine_hidden (lhs : FVec Ideal S4000x256 .bf16) (rhs : FVec Ideal S256x256 .bf16) (b : Vec Ideal S256 .f32)
    (p : Fin 4000) (s : Fin 4) (n : Fin 64) (a w : Fin 64 → EReal) (β : EReal)
    (ha : ∀ f : Fin 64, lhs (ix2 p (seg256 s f)) = a f)
    (hw : ∀ (s' : Fin 4) (f : Fin 64), rhs (ix2 (seg256 s' f) (seg256 s n)) = (if s' = s then (1 : EReal) else 0) * w f)
    (hb : b (ix1 (seg256 s n)) = β) :
    addf (matmul (F := Ideal) dot_S4000x256_S256x256_S4000x256_1_0_0_1_n_n none lhs rhs (constant S4000x256 .f32 0x00000000#32))
      (broadcastTo S4000x256 (shapeCast S1x256 b shapeCasts_S256_S1x256) broadcasts_S1x256_S4000x256) (ix2 p (seg256 s n))
      = (∑ f : Fin 64, a f * w f) + β := by
  refine (addf_apply _ _ _).trans ?_
  rw [BlockOps.matmul_hidden_apply, BlockOps.bias256_apply, hb]
  exact congrArg (· + β) (sum_blockdiag (M := 256) (K := 64) rfl (fun k => lhs (ix2 p k))
    (fun k => rhs (ix2 k (seg256 s n))) a w s ha hw)

/-- Output layer: 256 packed inputs against block-diagonal 256 × 8 weights. -/
theorem affine_out (lhs : FVec Ideal S4000x256 .bf16) (rhs : FVec Ideal S256x8 .bf16) (b : Vec Ideal S8 .f32)
    (p : Fin 4000) (s : Fin 4) (o : Fin 2) (a w : Fin 64 → EReal) (β : EReal)
    (ha : ∀ f : Fin 64, lhs (ix2 p (seg256 s f)) = a f)
    (hw : ∀ (s' : Fin 4) (f : Fin 64), rhs (ix2 (seg256 s' f) (seg8 s o)) = (if s' = s then (1 : EReal) else 0) * w f)
    (hb : b (ix1 (seg8 s o)) = β) :
    addf (matmul (F := Ideal) dot_S4000x256_S256x8_S4000x8_1_0_0_1_n_n none lhs rhs (constant S4000x8 .f32 0x00000000#32))
      (broadcastTo S4000x8 (shapeCast S1x8 b shapeCasts_S8_S1x8) broadcasts_S1x8_S4000x8) (ix2 p (seg8 s o))
      = (∑ f : Fin 64, a f * w f) + β := by
  refine (addf_apply _ _ _).trans ?_
  rw [BlockOps.matmul_out_apply, BlockOps.bias8_apply, hb]
  exact congrArg (· + β) (sum_blockdiag (M := 256) (K := 64) rfl (fun k => lhs (ix2 p k))
    (fun k => rhs (ix2 k (seg8 s o))) a w s ha hw)

/-- Rounding a block to bf16 changes no entry at the ideal values. -/
theorem trunc_apply (a : FVec Ideal S4000x256 .f32) (i : S4000x256.Idx) :
    (truncf .bf16 a bitsLt_bf16_f32 : FVec Ideal S4000x256 .bf16) i = a i := rfl

/-! ## The whole body at one packed row -/

section Row

variable (x0 : (⟨Cert.ReferenceIdeal.S100000x3, .f32⟩ : BufTy).Contents (Elt Ideal)) (x1 : (⟨Cert.ReferenceIdeal.S100000x64, .f32⟩ : BufTy).Contents (Elt Ideal)) (x2 : (⟨Cert.ReferenceIdeal.S100000x3, .f32⟩ : BufTy).Contents (Elt Ideal))
  (x4 x5 : (⟨Cert.ReferenceIdeal.S2000000, .i32⟩ : BufTy).Contents (Elt Ideal)) (x6 : (⟨Cert.ReferenceIdeal.S67x64, .f32⟩ : BufTy).Contents (Elt Ideal)) (x7 : (⟨Cert.ReferenceIdeal.S64, .f32⟩ : BufTy).Contents (Elt Ideal))
  (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal))
  (x12 : (⟨Cert.ReferenceIdeal.S64x2, .f32⟩ : BufTy).Contents (Elt Ideal)) (x13 : (⟨Cert.ReferenceIdeal.S2, .f32⟩ : BufTy).Contents (Elt Ideal))

variable (v0 : Vec Ideal S4000x268 .bf16) (v2 : Vec Ideal S268x256 .bf16) (v5 : Vec Ideal S256 .f32)
  (v12 : Vec Ideal S256x256 .bf16) (v15 : Vec Ideal S256 .f32) (v22 : Vec Ideal S256x256 .bf16) (v25 : Vec Ideal S256 .f32)
  (v30 : Vec Ideal S256x8 .bf16) (v33 : Vec Ideal S8 .f32) (p : Fin 4000) (R : Fin 500000)

/-- Row p of the loaded block holds packed row R of the gathered features, the loaded weights are the block-diagonal
    copies of the reference's weights and the loaded biases the repeated copies of its biases: then row p of what the
    body stores holds, at (segment s, class o), the reference's logit of edge 4 · R + s and class o. -/
theorem body_row
    (hx : ∀ (s : Fin 4) (f : Fin 67), v0 (ix2 p (seg268 s f)) = val_main_v22 (F := Ideal) x0 x1 x2 x4 x5 (ix2 (edge R s) f))
    (hw1 : ∀ (s' : Fin 4) (f : Fin 67) (s : Fin 4) (n : Fin 64),
      v2 (ix2 (seg268 s' f) (seg256 s n)) = (if s' = s then (1 : EReal) else 0) * (x6 (ix2 f n) : EReal))
    (hb1 : ∀ (s : Fin 4) (n : Fin 64), v5 (ix1 (seg256 s n)) = x7 (ix1 n))
    (hw2 : ∀ (s' : Fin 4) (f : Fin 64) (s : Fin 4) (n : Fin 64),
      v12 (ix2 (seg256 s' f) (seg256 s n)) = (if s' = s then (1 : EReal) else 0) * (x8 (ix2 f n) : EReal))
    (hb2 : ∀ (s : Fin 4) (n : Fin 64), v15 (ix1 (seg256 s n)) = x9 (ix1 n))
    (hw3 : ∀ (s' : Fin 4) (f : Fin 64) (s : Fin 4) (n : Fin 64),
      v22 (ix2 (seg256 s' f) (seg256 s n)) = (if s' = s then (1 : EReal) else 0) * (x10 (ix2 f n) : EReal))
    (hb3 : ∀ (s : Fin 4) (n : Fin 64), v25 (ix1 (seg256 s n)) = x11 (ix1 n))
    (hw4 : ∀ (s' : Fin 4) (f : Fin 64) (s : Fin 4) (o : Fin 2),
      v30 (ix2 (seg256 s' f) (seg8 s o)) = (if s' = s then (1 : EReal) else 0) * (x12 (ix2 f o) : EReal))
    (hb4 : ∀ (s : Fin 4) (o : Fin 2), v33 (ix1 (seg8 s o)) = x13 (ix1 o))
    (s : Fin 4) (o : Fin 2) :
    k0_pay1 (F := Ideal) v0 v2 v5 v12 v15 v22 v25 v30 v33 (ix2 p (seg8 s o))
      = val_main_v40 (F := Ideal) x0 x1 x2 x4 x5 x6 x7 x8 x9 x10 x11 x12 x13 (ix2 (edge R s) o) := by
  unfold k0_pay1
  rw [affine4_apply]
  refine affine_out _ _ v33 p s o _ _ _ (fun f => ?_) (fun s' f => ?_) (hb4 s o)
  · -- the third layer, not rectified
    refine (trunc_apply _ _).trans ?_
    rw [affine3_apply]
    refine affine_hidden _ _ v25 p s f _ _ _ (fun g => ?_) (fun s' g => ?_) (hb3 s f)
    · -- the second layer, rectified
      refine (trunc_apply _ _).trans ((maximumf_apply _ _ _).trans ?_)
      rw [relu2_apply, affine2_apply]
      refine congrArg (max · zero32) ?_
      refine affine_hidden _ _ v15 p s g _ _ _ (fun h => ?_) (fun s' h => ?_) (hb2 s g)
      · -- the first layer, rectified
        refine (trunc_apply _ _).trans ((maximumf_apply _ _ _).trans ?_)
        rw [relu1_apply, affine1_apply]
        refine congrArg (max · zero32) ?_
        refine affine_in _ _ v5 p s h _ _ _ (fun k => ?_) (fun s' k => ?_) (hb1 s h)
        · exact (congrFun (shapeCast_self v0 _) _).trans (hx s k)
        · exact (congrFun (shapeCast_self v2 _) _).trans (hw1 s' k s h)
      · exact (congrFun (shapeCast_self v12 _) _).trans (hw2 s' h s g)
    · exact (congrFun (shapeCast_self v22 _) _).trans (hw3 s' g s f)
  · exact (congrFun (shapeCast_self v30 _) _).trans (hw4 s' f s o)

end Row

end Cert.KernelIdeal.PackedBody

end
-- ==== Proof.Operands.lean ====
/-
  The arrays the region stages, as functions of the program's arguments, read one entry at a time (ideal values).

  Before the region the program builds, with ordinary array operations: the 4 × 4 identity matrix (a comparison of
  a row number with a column number, read as 1 or 0); for each weight matrix w its Kronecker product with that
  identity, laid out as a [4 · K, 4 · N] matrix — entry (K · s' + f, N · s + n) is identity (s', s) · w (f, n) —;
  each bias repeated four times; and the gathered feature rows, four consecutive edges laid side by side.
-/
import proofs.«178233_j16681652977700_2_alg».proof.Proof.Gen.KernelIdeal
import proofs.«178233_j16681652977700_2_alg».proof.Proof.BlockDiagonal
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Operands

open Cert.KernelIdeal Cert.KernelIdeal.Gen Idealize.ShloMosaic Idealize.ShloMosaic.ValueIdx Cert.BlockDiagonal

/-! ## The identity matrix -/

/-- The 4 × 4 identity as the program builds it: row number equal to column number, the one-bit answer read as a
    number. -/
def eye4 : FVec Ideal S4x4 .f32 :=
  uitofp .f32 (cmpi .eq (addi (iotaInDim S4x4 32 0) (broadcastInDim S4x4 ![] bcast_S_S4x4 (constantI S_ 32 0#32))) (iotaInDim S4x4 32 1))

theorem eye4_apply (a b : Fin 4) : eye4 (ix2 a b) = if a = b then (1 : EReal) else 0 := by
  have hw : ∀ a b : Fin 4, IntOp.cmpi .eq (IntOp.addi (BitVec.ofNat 32 a.val) 0#32) (BitVec.ofNat 32 b.val)
      = if a = b then 1#1 else 0#1 := by decide
  show (((IntOp.cmpi .eq (IntOp.addi (BitVec.ofNat 32 a.val) 0#32) (BitVec.ofNat 32 b.val)).toNat : ℝ) : EReal) = _
  rw [hw]
  split <;> simp

/-! ## The block-diagonal weights -/

/-- The first layer's 67 × 64 weights repeated on the diagonal of a 268 × 256 matrix, rounded to bf16. -/
def kronIn (w : FVec Ideal S67x64 .f32) : FVec Ideal S268x256 .bf16 :=
  truncf .bf16 (shapeCast S268x256
    (mulf (broadcastInDim S4x67x4x64 ![0, 1, 2, 3] bcast_S4x1x4x1_S4x67x4x64_0_1_2_3 (broadcastInDim S4x1x4x1 ![0, 2] bcast_S4x4_S4x1x4x1_0_2 eye4))
      (broadcastInDim S4x67x4x64 ![0, 1, 2, 3] bcast_S1x67x1x64_S4x67x4x64_0_1_2_3 (broadcastInDim S1x67x1x64 ![1, 3] bcast_S67x64_S1x67x1x64_1_3 w)))
    shapeCasts_S4x67x4x64_S268x256) bitsLt_bf16_f32

/-- Its entry at (segment s', position f) × (segment s, position n): the repeated block's entry (f, n) on the
    diagonal blocks, zero elsewhere. -/
theorem kronIn_apply (w : FVec Ideal S67x64 .f32) (s' : Fin 4) (f : Fin 67) (s : Fin 4) (n : Fin 64) :
    kronIn w (ix2 (seg268 s' f) (seg256 s n)) = (if s' = s then (1 : EReal) else 0) * w (ix2 f n) := by
  unfold kronIn
  refine (truncf_apply (φ := .f32) (ψ := .bf16) _ bitsLt_bf16_f32 _).trans ?_
  rw [shapeCast_apply _ shapeCasts_S4x67x4x64_S268x256 (ix2 (seg268 s' f) (seg256 s n)) (ix4 s' f s n) (by
    rw [Shape.rowMajor_val_four, Shape.rowMajor_val_two]
    show ((s'.val * 67 + f.val) * 4 + s.val) * 64 + n.val = (67 * s'.val + f.val) * 256 + (64 * s.val + n.val)
    omega)]
  rw [mulf_apply]
  rw [broadcastInDim_apply _ bcast_S4x1x4x1_S4x67x4x64_0_1_2_3 _ (ix4 s' f s n) (ix4 s' (0 : Fin 1) s (0 : Fin 1)) (fun a => match a with
    | ⟨0, _⟩ => by show s'.val = if (4 : Nat) = 1 then 0 else s'.val; rw [if_neg (by decide)]
    | ⟨1, _⟩ => by show 0 = if (1 : Nat) = 1 then 0 else f.val; rw [if_pos rfl]
    | ⟨2, _⟩ => by show s.val = if (4 : Nat) = 1 then 0 else s.val; rw [if_neg (by decide)]
    | ⟨3, _⟩ => by show 0 = if (1 : Nat) = 1 then 0 else n.val; rw [if_pos rfl])]
  rw [broadcastInDim_apply _ bcast_S4x4_S4x1x4x1_0_2 eye4 (ix4 s' (0 : Fin 1) s (0 : Fin 1)) (ix2 s' s) (fun a => match a with
    | ⟨0, _⟩ => by show s'.val = if (4 : Nat) = 1 then 0 else s'.val; rw [if_neg (by decide)]
    | ⟨1, _⟩ => by show s.val = if (4 : Nat) = 1 then 0 else s.val; rw [if_neg (by decide)])]
  rw [broadcastInDim_apply _ bcast_S1x67x1x64_S4x67x4x64_0_1_2_3 _ (ix4 s' f s n) (ix4 (0 : Fin 1) f (0 : Fin 1) n) (fun a => match a with
    | ⟨0, _⟩ => by show 0 = if (1 : Nat) = 1 then 0 else s'.val; rw [if_pos rfl]
    | ⟨1, _⟩ => by show f.val = if (67 : Nat) = 1 then 0 else f.val; rw [if_neg (by decide)]
    | ⟨2, _⟩ => by show 0 = if (1 : Nat) = 1 then 0 else s.val; rw [if_pos rfl]
    | ⟨3, _⟩ => by show n.val = if (64 : Nat) = 1 then 0 else n.val; rw [if_neg (by decide)])]
  rw [broadcastInDim_apply _ bcast_S67x64_S1x67x1x64_1_3 w (ix4 (0 : Fin 1) f (0 : Fin 1) n) (ix2 f n) (fun a => match a with
    | ⟨0, _⟩ => by show f.val = if (67 : Nat) = 1 then 0 else f.val; rw [if_neg (by decide)]
    | ⟨1, _⟩ => by show n.val = if (64 : Nat) = 1 then 0 else n.val; rw [if_neg (by decide)])]
  rw [eye4_apply]

/-- A hidden layer's 64 × 64 weights repeated on the diagonal of a 256 × 256 matrix, rounded to bf16. -/
def kronHidden (w : FVec Ideal S64x64 .f32) : FVec Ideal S256x256 .bf16 :=
  truncf .bf16 (shapeCast S256x256
    (mulf (broadcastInDim S4x64x4x64 ![0, 1, 2, 3] bcast_S4x1x4x1_S4x64x4x64_0_1_2_3 (broadcastInDim S4x1x4x1 ![0, 2] bcast_S4x4_S4x1x4x1_0_2 eye4))
      (broadcastInDim S4x64x4x64 ![0, 1, 2, 3] bcast_S1x64x1x64_S4x64x4x64_0_1_2_3 (broadcastInDim S1x64x1x64 ![1, 3] bcast_S64x64_S1x64x1x64_1_3 w)))
    shapeCasts_S4x64x4x64_S256x256) bitsLt_bf16_f32

/-- Its entry at (segment s', position f) × (segment s, position n): the repeated block's entry (f, n) on the
    diagonal blocks, zero elsewhere. -/
theorem kronHidden_apply (w : FVec Ideal S64x64 .f32) (s' : Fin 4) (f : Fin 64) (s : Fin 4) (n : Fin 64) :
    kronHidden w (ix2 (seg256 s' f) (seg256 s n)) = (if s' = s then (1 : EReal) else 0) * w (ix2 f n) := by
  unfold kronHidden
  refine (truncf_apply (φ := .f32) (ψ := .bf16) _ bitsLt_bf16_f32 _).trans ?_
  rw [shapeCast_apply _ shapeCasts_S4x64x4x64_S256x256 (ix2 (seg256 s' f) (seg256 s n)) (ix4 s' f s n) (by
    rw [Shape.rowMajor_val_four, Shape.rowMajor_val_two]
    show ((s'.val * 64 + f.val) * 4 + s.val) * 64 + n.val = (64 * s'.val + f.val) * 256 + (64 * s.val + n.val)
    omega)]
  rw [mulf_apply]
  rw [broadcastInDim_apply _ bcast_S4x1x4x1_S4x64x4x64_0_1_2_3 _ (ix4 s' f s n) (ix4 s' (0 : Fin 1) s (0 : Fin 1)) (fun a => match a with
    | ⟨0, _⟩ => by show s'.val = if (4 : Nat) = 1 then 0 else s'.val; rw [if_neg (by decide)]
    | ⟨1, _⟩ => by show 0 = if (1 : Nat) = 1 then 0 else f.val; rw [if_pos rfl]
    | ⟨2, _⟩ => by show s.val = if (4 : Nat) = 1 then 0 else s.val; rw [if_neg (by decide)]
    | ⟨3, _⟩ => by show 0 = if (1 : Nat) = 1 then 0 else n.val; rw [if_pos rfl])]
  rw [broadcastInDim_apply _ bcast_S4x4_S4x1x4x1_0_2 eye4 (ix4 s' (0 : Fin 1) s (0 : Fin 1)) (ix2 s' s) (fun a => match a with
    | ⟨0, _⟩ => by show s'.val = if (4 : Nat) = 1 then 0 else s'.val; rw [if_neg (by decide)]
    | ⟨1, _⟩ => by show s.val = if (4 : Nat) = 1 then 0 else s.val; rw [if_neg (by decide)])]
  rw [broadcastInDim_apply _ bcast_S1x64x1x64_S4x64x4x64_0_1_2_3 _ (ix4 s' f s n) (ix4 (0 : Fin 1) f (0 : Fin 1) n) (fun a => match a with
    | ⟨0, _⟩ => by show 0 = if (1 : Nat) = 1 then 0 else s'.val; rw [if_pos rfl]
    | ⟨1, _⟩ => by show f.val = if (64 : Nat) = 1 then 0 else f.val; rw [if_neg (by decide)]
    | ⟨2, _⟩ => by show 0 = if (1 : Nat) = 1 then 0 else s.val; rw [if_pos rfl]
    | ⟨3, _⟩ => by show n.val = if (64 : Nat) = 1 then 0 else n.val; rw [if_neg (by decide)])]
  rw [broadcastInDim_apply _ bcast_S64x64_S1x64x1x64_1_3 w (ix4 (0 : Fin 1) f (0 : Fin 1) n) (ix2 f n) (fun a => match a with
    | ⟨0, _⟩ => by show f.val = if (64 : Nat) = 1 then 0 else f.val; rw [if_neg (by decide)]
    | ⟨1, _⟩ => by show n.val = if (64 : Nat) = 1 then 0 else n.val; rw [if_neg (by decide)])]
  rw [eye4_apply]

/-- The output layer's 64 × 2 weights repeated on the diagonal of a 256 × 8 matrix, rounded to bf16. -/
def kronOut (w : FVec Ideal S64x2 .f32) : FVec Ideal S256x8 .bf16 :=
  truncf .bf16 (shapeCast S256x8
    (mulf (broadcastInDim S4x64x4x2 ![0, 1, 2, 3] bcast_S4x1x4x1_S4x64x4x2_0_1_2_3 (broadcastInDim S4x1x4x1 ![0, 2] bcast_S4x4_S4x1x4x1_0_2 eye4))
      (broadcastInDim S4x64x4x2 ![0, 1, 2, 3] bcast_S1x64x1x2_S4x64x4x2_0_1_2_3 (broadcastInDim S1x64x1x2 ![1, 3] bcast_S64x2_S1x64x1x2_1_3 w)))
    shapeCasts_S4x64x4x2_S256x8) bitsLt_bf16_f32

/-- Its entry at (segment s', position f) × (segment s, position n): the repeated block's entry (f, n) on the
    diagonal blocks, zero elsewhere. -/
theorem kronOut_apply (w : FVec Ideal S64x2 .f32) (s' : Fin 4) (f : Fin 64) (s : Fin 4) (n : Fin 2) :
    kronOut w (ix2 (seg256 s' f) (seg8 s n)) = (if s' = s then (1 : EReal) else 0) * w (ix2 f n) := by
  unfold kronOut
  refine (truncf_apply (φ := .f32) (ψ := .bf16) _ bitsLt_bf16_f32 _).trans ?_
  rw [shapeCast_apply _ shapeCasts_S4x64x4x2_S256x8 (ix2 (seg256 s' f) (seg8 s n)) (ix4 s' f s n) (by
    rw [Shape.rowMajor_val_four, Shape.rowMajor_val_two]
    show ((s'.val * 64 + f.val) * 4 + s.val) * 2 + n.val = (64 * s'.val + f.val) * 8 + (2 * s.val + n.val)
    omega)]
  rw [mulf_apply]
  rw [broadcastInDim_apply _ bcast_S4x1x4x1_S4x64x4x2_0_1_2_3 _ (ix4 s' f s n) (ix4 s' (0 : Fin 1) s (0 : Fin 1)) (fun a => match a with
    | ⟨0, _⟩ => by show s'.val = if (4 : Nat) = 1 then 0 else s'.val; rw [if_neg (by decide)]
    | ⟨1, _⟩ => by show 0 = if (1 : Nat) = 1 then 0 else f.val; rw [if_pos rfl]
    | ⟨2, _⟩ => by show s.val = if (4 : Nat) = 1 then 0 else s.val; rw [if_neg (by decide)]
    | ⟨3, _⟩ => by show 0 = if (1 : Nat) = 1 then 0 else n.val; rw [if_pos rfl])]
  rw [broadcastInDim_apply _ bcast_S4x4_S4x1x4x1_0_2 eye4 (ix4 s' (0 : Fin 1) s (0 : Fin 1)) (ix2 s' s) (fun a => match a with
    | ⟨0, _⟩ => by show s'.val = if (4 : Nat) = 1 then 0 else s'.val; rw [if_neg (by decide)]
    | ⟨1, _⟩ => by show s.val = if (4 : Nat) = 1 then 0 else s.val; rw [if_neg (by decide)])]
  rw [broadcastInDim_apply _ bcast_S1x64x1x2_S4x64x4x2_0_1_2_3 _ (ix4 s' f s n) (ix4 (0 : Fin 1) f (0 : Fin 1) n) (fun a => match a with
    | ⟨0, _⟩ => by show 0 = if (1 : Nat) = 1 then 0 else s'.val; rw [if_pos rfl]
    | ⟨1, _⟩ => by show f.val = if (64 : Nat) = 1 then 0 else f.val; rw [if_neg (by decide)]
    | ⟨2, _⟩ => by show 0 = if (1 : Nat) = 1 then 0 else s.val; rw [if_pos rfl]
    | ⟨3, _⟩ => by show n.val = if (2 : Nat) = 1 then 0 else n.val; rw [if_neg (by decide)])]
  rw [broadcastInDim_apply _ bcast_S64x2_S1x64x1x2_1_3 w (ix4 (0 : Fin 1) f (0 : Fin 1) n) (ix2 f n) (fun a => match a with
    | ⟨0, _⟩ => by show f.val = if (64 : Nat) = 1 then 0 else f.val; rw [if_neg (by decide)]
    | ⟨1, _⟩ => by show n.val = if (2 : Nat) = 1 then 0 else n.val; rw [if_neg (by decide)])]
  rw [eye4_apply]

/-! ## The repeated biases -/

/-- A 64-entry bias repeated four times. -/
def tile64 (b : FVec Ideal S64 .f32) : FVec Ideal S256 .f32 :=
  shapeCast S256 (broadcastInDim S4x64 ![0, 1] bcast_S1x64_S4x64_0_1 (shapeCast S1x64 b shapeCasts_S64_S1x64)) shapeCasts_S4x64_S256

/-- Its entry at (segment s, position n) is the bias's entry n. -/
theorem tile64_apply (b : FVec Ideal S64 .f32) (s : Fin 4) (n : Fin 64) : tile64 b (ix1 (seg256 s n)) = b (ix1 n) := by
  unfold tile64
  rw [shapeCast_apply _ shapeCasts_S4x64_S256 (ix1 (seg256 s n)) (ix2 s n) (by
    rw [Shape.rowMajor_val_two, Shape.rowMajor_val_one]
    show s.val * 64 + n.val = 64 * s.val + n.val
    omega)]
  rw [broadcastInDim_apply _ bcast_S1x64_S4x64_0_1 _ (ix2 s n) (ix2 (0 : Fin 1) n) (fun a => match a with
    | ⟨0, _⟩ => by show 0 = if (1 : Nat) = 1 then 0 else s.val; rw [if_pos rfl]
    | ⟨1, _⟩ => by show n.val = if (64 : Nat) = 1 then 0 else n.val; rw [if_neg (by decide)])]
  exact shapeCast_a_1a_apply b _ 0 n

/-- The 2-entry output bias repeated four times. -/
def tile2 (b : FVec Ideal S2 .f32) : FVec Ideal S8 .f32 :=
  shapeCast S8 (broadcastInDim S4x2 ![0, 1] bcast_S1x2_S4x2_0_1 (shapeCast S1x2 b shapeCasts_S2_S1x2)) shapeCasts_S4x2_S8

/-- Its entry at (segment s, position n) is the bias's entry n. -/
theorem tile2_apply (b : FVec Ideal S2 .f32) (s : Fin 4) (n : Fin 2) : tile2 b (ix1 (seg8 s n)) = b (ix1 n) := by
  unfold tile2
  rw [shapeCast_apply _ shapeCasts_S4x2_S8 (ix1 (seg8 s n)) (ix2 s n) (by
    rw [Shape.rowMajor_val_two, Shape.rowMajor_val_one]
    show s.val * 2 + n.val = 2 * s.val + n.val
    omega)]
  rw [broadcastInDim_apply _ bcast_S1x2_S4x2_0_1 _ (ix2 s n) (ix2 (0 : Fin 1) n) (fun a => match a with
    | ⟨0, _⟩ => by show 0 = if (1 : Nat) = 1 then 0 else s.val; rw [if_pos rfl]
    | ⟨1, _⟩ => by show n.val = if (2 : Nat) = 1 then 0 else n.val; rw [if_neg (by decide)])]
  exact shapeCast_a_1a_apply b _ 0 n

/-! ## The packed feature rows -/

/-- Four consecutive 67-entry feature rows laid side by side: packed row R, position (segment s, feature f), is
    edge 4 · R + s, feature f. -/
theorem pack_apply (X : FVec Ideal S2000000x67 .bf16) (R : Fin 500000) (s : Fin 4) (f : Fin 67) :
    shapeCast S500000x268 X shapeCasts_S2000000x67_S500000x268 (ix2 R (seg268 s f)) = X (ix2 (edge R s) f) :=
  shapeCast_apply X _ (ix2 R (seg268 s f)) (ix2 (edge R s) f) (by
    rw [Shape.rowMajor_val_two, Shape.rowMajor_val_two]
    show (4 * R.val + s.val) * 67 + f.val = R.val * 268 + (67 * s.val + f.val)
    omega)

/-- The packed logits unpacked: edge 4 · R + s, class o, is packed row R, position (segment s, class o). -/
theorem unpack_apply (Y : FVec Ideal S2000000x2 .f32) (h : S2000000x2.ShapeCasts S500000x8) (R : Fin 500000) (s : Fin 4) (o : Fin 2) :
    shapeCast S500000x8 Y h (ix2 R (seg8 s o)) = Y (ix2 (edge R s) o) :=
  shapeCast_apply Y h (ix2 R (seg8 s o)) (ix2 (edge R s) o) (by
    rw [Shape.rowMajor_val_two, Shape.rowMajor_val_two]
    show (4 * R.val + s.val) * 2 + o.val = R.val * 8 + (2 * s.val + o.val)
    omega)

end Cert.KernelIdeal.Operands

end
-- ==== Proof.Staged.lean ====
/-
  What the region finds in each array it stages, as the named functions of the program's arguments.

  The operations before the region only read the arguments (which no operation writes), so every staged array is
  a fixed function of the launch contents: the packed feature rows, the block-diagonal weights, the repeated
  biases. The gathered feature rows are, entry for entry, the reference's own (the kernel rounds to bf16 on the
  way, which changes nothing at the ideal values).
-/
import proofs.«178233_j16681652977700_2_alg».proof.Proof.Gen.KernelIdeal.Frame
import proofs.«178233_j16681652977700_2_alg».proof.Proof.Gen.ReferenceIdeal.Read
import proofs.«178233_j16681652977700_2_alg».proof.Proof.Operands
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.StableHlo Cert.KernelIdeal.Operands

variable (m : (ℓ : Loc nD τ sig) → Buf (Elt Ideal) ℓ)

/-- The gathered feature rows, one per edge: the reference's own stage, of this program's arguments. -/
def features (c : Dev nD) : FVec Ideal S2000000x67 .bf16 :=
  Cert.ReferenceIdeal.Read.val_main_v22 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

/-- Window 0's array: the feature rows, four edges per packed row. -/
theorem features_packed (c : Dev nD) : (V m c main_v25 : S500000x268.Idx → EReal) = shapeCast S500000x268 (features m c) shapeCasts_S2000000x67_S500000x268 := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 1's array: the first layer's block-diagonal weights. -/
theorem weights_in (c : Dev nD) : (V m c main_v33 : S268x256.Idx → EReal) = kronIn (m ((c.tc : Thread nD τ).loc main_arg6)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 2's array: the first layer's bias, repeated. -/
theorem bias_in (c : Dev nD) : (V m c main_v60 : S256.Idx → EReal) = tile64 (m ((c.tc : Thread nD τ).loc main_arg7)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 3's array: the second layer's block-diagonal weights. -/
theorem weights_h1 (c : Dev nD) : (V m c main_v41 : S256x256.Idx → EReal) = kronHidden (m ((c.tc : Thread nD τ).loc main_arg8)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 4's array: the second layer's bias, repeated. -/
theorem bias_h1 (c : Dev nD) : (V m c main_v63 : S256.Idx → EReal) = tile64 (m ((c.tc : Thread nD τ).loc main_arg9)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 5's array: the third layer's block-diagonal weights. -/
theorem weights_h2 (c : Dev nD) : (V m c main_v49 : S256x256.Idx → EReal) = kronHidden (m ((c.tc : Thread nD τ).loc main_arg10)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 6's array: the third layer's bias, repeated. -/
theorem bias_h2 (c : Dev nD) : (V m c main_v66 : S256.Idx → EReal) = tile64 (m ((c.tc : Thread nD τ).loc main_arg11)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 7's array: the output layer's block-diagonal weights. -/
theorem weights_out (c : Dev nD) : (V m c main_v57 : S256x8.Idx → EReal) = kronOut (m ((c.tc : Thread nD τ).loc main_arg12)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- Window 8's array: the output layer's bias, repeated. -/
theorem bias_out (c : Dev nD) : (V m c main_v69 : S8.Idx → EReal) = tile2 (m ((c.tc : Thread nD τ).loc main_arg13)) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Staged

end
-- ==== Proof.Final.lean ====
/-
  From what each grid point writes back to the whole packed output, and the kernel program's two results.

  Grid point t handles packed rows 4000 · t … 4000 · t + 3999: it stages that block of the packed feature rows
  and the whole of every weight and bias array. By the row-by-row reading of the body, what it writes back is
  the same block of ONE array, the reference's logits with four edges per row. The 125 blocks tile the packed
  output, so after the region the output array is that array; unpacking it gives the reference's logits, and the
  operations after the region (the softmax over the two classes, the label gather) are the reference's own.
-/
import proofs.«178233_j16681652977700_2_alg».proof.Proof.Gen.KernelIdeal.Frame
import proofs.«178233_j16681652977700_2_alg».proof.Proof.Gen.ReferenceIdeal.Read
import proofs.«178233_j16681652977700_2_alg».proof.Proof.PackedBody
import proofs.«178233_j16681652977700_2_alg».proof.Proof.Staged
import Idealize.ShloMosaic.Lib.Pipeline.Value
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem
open Idealize.ShloMosaic.StableHlo Idealize.ShloMosaic.ValueIdx Cert.BlockDiagonal
open Cert.KernelIdeal.Operands Cert.KernelIdeal.Staged
open Idealize.ShloMosaic.Pipeline (Dat)

variable (m : (ℓ : Loc nD τ sig) → Buf (Elt Ideal) ℓ) (ρ : Dev nD → PrngReg)

/-! ## The array the blocks belong to -/

/-- The reference's logits, one row per edge, of this program's arguments. -/
def logits (c : Dev nD) : FVec Ideal S2000000x2 .f32 :=
  Cert.ReferenceIdeal.Read.val_main_v40 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

theorem casts_packed : S2000000x2.ShapeCasts S500000x8 := by decide

/-- The same logits with four edges per row: the array every grid point writes a block of. -/
def packedLogits (c : Dev nD) : FVec Ideal S500000x8 .f32 := shapeCast S500000x8 (logits m c) casts_packed

/-! ## Where each window's block sits in its array -/

/-- The printed index maps, decided over the grid: the feature window and the output window are at block t along
    the rows; every weight and bias window is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem N_lt (t : Fin cfg0.N) : t.val < 125 := Nat.lt_of_lt_of_eq t.isLt N_0

/-- Packed row 4000 · t + p, the row that row p of block t is. -/
abbrev rowOf (t : Fin cfg0.N) (p : Fin 4000) : Fin 500000 := ⟨4000 * t.val + p.val, by have := N_lt t; omega⟩

/-- Row p of the feature window's block at point t is packed row 4000 · t + p. -/
theorem blk0 (c : Dev nD) (t : Fin cfg0.N) (p : Fin 4000) (q : Fin 268) :
    iblk m c 0 t (ix2 p q) = (V m c main_v25 : S500000x268.Idx → EReal) (ix2 (rowOf t p) q) := by
  obtain ⟨e00, e01, e10, e11, e2, e30, e31, e4, e50, e51, e6, e70, e71, e8, e90, e91⟩ := idx_facts t
  show V m c main_v25 (((cfg0.win 0).blk t).view.emb (ix2 p q)) = V m c main_v25 (ix2 (rowOf t p) q)
  refine congrArg (V m c main_v25) (funext fun a => Fin.ext ?_)
  match a with
  | ⟨0, _⟩ => show win0_0.index t (0 : Fin 2) * 4000 + 1 * p.val = ((rowOf t p) : Fin _).val; show win0_0.index t (0 : Fin 2) * 4000 + 1 * p.val = 4000 * t.val + p.val; omega
  | ⟨1, _⟩ => show win0_0.index t (1 : Fin 2) * 268 + 1 * q.val = q.val; omega

/-- The first layer's weights are staged whole. -/
theorem blk1 (c : Dev nD) (t : Fin cfg0.N) (p : Fin 268) (q : Fin 256) :
    iblk m c 1 t (ix2 p q) = (V m c main_v33 : S268x256.Idx → EReal) (ix2 p q) := by
  obtain ⟨e00, e01, e10, e11, e2, e30, e31, e4, e50, e51, e6, e70, e71, e8, e90, e91⟩ := idx_facts t
  show V m c main_v33 (((cfg0.win 1).blk t).view.emb (ix2 p q)) = V m c main_v33 (ix2 p q)
  refine congrArg (V m c main_v33) (funext fun a => Fin.ext ?_)
  match a with
  | ⟨0, _⟩ => show win0_1.index t (0 : Fin 2) * 268 + 1 * p.val = (p : Fin _).val; omega
  | ⟨1, _⟩ => show win0_1.index t (1 : Fin 2) * 256 + 1 * q.val = q.val; omega

/-- The first layer's bias is staged whole. -/
theorem blk2 (c : Dev nD) (t : Fin cfg0.N) (q : Fin 256) :
    iblk m c 2 t (ix1 q) = (V m c main_v60 : S256.Idx → EReal) (ix1 q) := by
  obtain ⟨e00, e01, e10, e11, e2, e30, e31, e4, e50, e51, e6, e70, e71, e8, e90, e91⟩ := idx_facts t
  show V m c main_v60 (((cfg0.win 2).blk t).view.emb (ix1 q)) = V m c main_v60 (ix1 q)
  refine congrArg (V m c main_v60) (funext fun a => Fin.ext ?_)
  match a with
  | ⟨0, _⟩ => show win0_2.index t (0 : Fin 1) * 256 + 1 * q.val = q.val; omega

/-- The second layer's weights are staged whole. -/
theorem blk3 (c : Dev nD) (t : Fin cfg0.N) (p : Fin 256) (q : Fin 256) :
    iblk m c 3 t (ix2 p q) = (V m c main_v41 : S256x256.Idx → EReal) (ix2 p q) := by
  obtain ⟨e00, e01, e10, e11, e2, e30, e31, e4, e50, e51, e6, e70, e71, e8, e90, e91⟩ := idx_facts t
  show V m c main_v41 (((cfg0.win 3).blk t).view.emb (ix2 p q)) = V m c main_v41 (ix2 p q)
  refine congrArg (V m c main_v41) (funext fun a => Fin.ext ?_)
  match a with
  | ⟨0, _⟩ => show win0_3.index t (0 : Fin 2) * 256 + 1 * p.val = (p : Fin _).val; omega
  | ⟨1, _⟩ => show win0_3.index t (1 : Fin 2) * 256 + 1 * q.val = q.val; omega

/-- The second layer's bias is staged whole. -/
theorem blk4 (c : Dev nD) (t : Fin cfg0.N) (q : Fin 256) :
    iblk m c 4 t (ix1 q) = (V m c main_v63 : S256.Idx → EReal) (ix1 q) := by
  obtain ⟨e00, e01, e10, e11, e2, e30, e31, e4, e50, e51, e6, e70, e71, e8, e90, e91⟩ := idx_facts t
  show V m c main_v63 (((cfg0.win 4).blk t).view.emb (ix1 q)) = V m c main_v63 (ix1 q)
  refine congrArg (V m c main_v63) (funext fun a => Fin.ext ?_)
  match a with
  | ⟨0, _⟩ => show win0_4.index t (0 : Fin 1) * 256 + 1 * q.val = q.val; omega

/-- The third layer's weights are staged whole. -/
theorem blk5 (c : Dev nD) (t : Fin cfg0.N) (p : Fin 256) (q : Fin 256) :
    iblk m c 5 t (ix2 p q) = (V m c main_v49 : S256x256.Idx → EReal) (ix2 p q) := by
  obtain ⟨e00, e01, e10, e11, e2, e30, e31, e4, e50, e51, e6, e70, e71, e8, e90, e91⟩ := idx_facts t
  show V m c main_v49 (((cfg0.win 5).blk t).view.emb (ix2 p q)) = V m c main_v49 (ix2 p q)
  refine congrArg (V m c main_v49) (funext fun a => Fin.ext ?_)
  match a with
  | ⟨0, _⟩ => show win0_5.index t (0 : Fin 2) * 256 + 1 * p.val = (p : Fin _).val; omega
  | ⟨1, _⟩ => show win0_5.index t (1 : Fin 2) * 256 + 1 * q.val = q.val; omega

/-- The third layer's bias is staged whole. -/
theorem blk6 (c : Dev nD) (t : Fin cfg0.N) (q : Fin 256) :
    iblk m c 6 t (ix1 q) = (V m c main_v66 : S256.Idx → EReal) (ix1 q) := by
  obtain ⟨e00, e01, e10, e11, e2, e30, e31, e4, e50, e51, e6, e70, e71, e8, e90, e91⟩ := idx_facts t
  show V m c main_v66 (((cfg0.win 6).blk t).view.emb (ix1 q)) = V m c main_v66 (ix1 q)
  refine congrArg (V m c main_v66) (funext fun a => Fin.ext ?_)
  match a with
  | ⟨0, _⟩ => show win0_6.index t (0 : Fin 1) * 256 + 1 * q.val = q.val; omega

/-- The output layer's weights are staged whole. -/
theorem blk7 (c : Dev nD) (t : Fin cfg0.N) (p : Fin 256) (q : Fin 8) :
    iblk m c 7 t (ix2 p q) = (V m c main_v57 : S256x8.Idx → EReal) (ix2 p q) := by
  obtain ⟨e00, e01, e10, e11, e2, e30, e31, e4, e50, e51, e6, e70, e71, e8, e90, e91⟩ := idx_facts t
  show V m c main_v57 (((cfg0.win 7).blk t).view.emb (ix2 p q)) = V m c main_v57 (ix2 p q)
  refine congrArg (V m c main_v57) (funext fun a => Fin.ext ?_)
  match a with
  | ⟨0, _⟩ => show win0_7.index t (0 : Fin 2) * 256 + 1 * p.val = (p : Fin _).val; omega
  | ⟨1, _⟩ => show win0_7.index t (1 : Fin 2) * 8 + 1 * q.val = q.val; omega

/-- The output layer's bias is staged whole. -/
theorem blk8 (c : Dev nD) (t : Fin cfg0.N) (q : Fin 8) :
    iblk m c 8 t (ix1 q) = (V m c main_v69 : S8.Idx → EReal) (ix1 q) := by
  obtain ⟨e00, e01, e10, e11, e2, e30, e31, e4, e50, e51, e6, e70, e71, e8, e90, e91⟩ := idx_facts t
  show V m c main_v69 (((cfg0.win 8).blk t).view.emb (ix1 q)) = V m c main_v69 (ix1 q)
  refine congrArg (V m c main_v69) (funext fun a => Fin.ext ?_)
  match a with
  | ⟨0, _⟩ => show win0_8.index t (0 : Fin 1) * 8 + 1 * q.val = q.val; omega

/-! ## What a point writes back -/

theorem hz2 : (![0, 0] : Fin 2 → Nat) = fun _ => 0 := funext fun a => by fin_cases a <;> rfl
theorem hz1 : (![0] : Fin 1 → Nat) = fun _ => 0 := funext fun a => by fin_cases a; rfl

/-- Every position of a packed row of eight logits is (segment s, class o). -/
theorem exists_seg8 (q : Fin 8) : ∃ (s : Fin 4) (o : Fin 2), q = seg8 s o :=
  ⟨⟨q.val / 2, by omega⟩, ⟨q.val % 2, by omega⟩, Fin.ext (by show q.val = 2 * (q.val / 2) + q.val % 2; omega)⟩

/-- WHAT POINT t WRITES BACK is block t of the packed logits. -/
theorem flushed_eq (c : Dev nD) (t : Fin cfg0.N) :
    (dats m 0 c).flushed 9 t = ((cfg0.win 9).blk t).view.read (Elt Ideal) (packedLogits m c) := by
  show (cfg0.win 9).cut (grid0.coords t) ((dats m 0 c).after 9 t) = _
  rw [after0_9]
  unfold out0_9
  rw [View.canon_unit_zero hz2]
  simp only [View.ld_unit_zero (S := S4000x268) hz2, View.ld_unit_zero (S := S268x256) hz2, View.ld_unit_zero (S := S256) hz1,
    View.ld_unit_zero (S := S256x256) hz2, View.ld_unit_zero (S := S256x8) hz2, View.ld_unit_zero (S := S8) hz1]
  obtain ⟨e00, e01, e10, e11, e2, e30, e31, e4, e50, e51, e6, e70, e71, e8, e90, e91⟩ := idx_facts t
  funext y
  obtain ⟨p, q, rfl⟩ : ∃ (p : Fin 4000) (q : Fin 8), y = ix2 p q := ⟨y 0, y 1, eq_ix2 y⟩
  obtain ⟨s, o, rfl⟩ := exists_seg8 q
  have hemb : ((cfg0.win 9).blk t).view.emb (ix2 p (seg8 s o)) = ix2 (rowOf t p) (seg8 s o) :=
    funext fun a => Fin.ext (by
      match a with
      | ⟨0, _⟩ => show win0_9.index t (0 : Fin 2) * 4000 + 1 * p.val = 4000 * t.val + p.val; omega
      | ⟨1, _⟩ => show win0_9.index t (1 : Fin 2) * 8 + 1 * (2 * s.val + o.val) = 2 * s.val + o.val; omega)
  show k0_pay1 (F := Ideal) (iblk m c 0 t) (iblk m c 1 t) (iblk m c 2 t) (iblk m c 3 t) (iblk m c 4 t) (iblk m c 5 t) (iblk m c 6 t) (iblk m c 7 t) (iblk m c 8 t) (ix2 p (seg8 s o))
    = packedLogits m c (((cfg0.win 9).blk t).view.emb (ix2 p (seg8 s o)))
  rw [hemb]
  refine Eq.trans ?_ (unpack_apply (logits m c) casts_packed (rowOf t p) s o).symm
  exact PackedBody.body_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (iblk m c 0 t) (iblk m c 1 t) (iblk m c 2 t) (iblk m c 3 t) (iblk m c 4 t) (iblk m c 5 t) (iblk m c 6 t) (iblk m c 7 t) (iblk m c 8 t)
    p (rowOf t p)
    (fun s f => by rw [blk0, features_packed]; exact pack_apply (features m c) (rowOf t p) s f)
    (fun s' f s n => by rw [blk1, weights_in]; exact kronIn_apply _ s' f s n)
    (fun s n => by rw [blk2, bias_in]; exact tile64_apply _ s n)
    (fun s' f s n => by rw [blk3, weights_h1]; exact kronHidden_apply _ s' f s n)
    (fun s n => by rw [blk4, bias_h1]; exact tile64_apply _ s n)
    (fun s' f s n => by rw [blk5, weights_h2]; exact kronHidden_apply _ s' f s n)
    (fun s n => by rw [blk6, bias_h2]; exact tile64_apply _ s n)
    (fun s' f s o => by rw [blk7, weights_out]; exact kronOut_apply _ s' f s o)
    (fun s o => by rw [blk8, bias_out]; exact tile2_apply _ s o)
    s o

/-! ## The blocks tile the packed output -/

/-- An index of the packed output is in point t's block iff its row is one of the block's 4000. -/
theorem mem_blk (t : Fin cfg0.N) (i : S500000x8.Idx) :
    i ∈ ((cfg0.win 9).blk t).view.set ↔ ∀ a : Fin 2, win0_9.index t a * S4000x8.size a ≤ (i a).val ∧ (i a).val < win0_9.index t a * S4000x8.size a + S4000x8.size a := by
  show i ∈ ((View.whole main_v70).slice (win0_9.rect t)).set ↔ _
  rw [View.set_slice_whole, Rect.mem_set_unit]
  exact Iff.rfl

/-- Every index of the packed output is in the block of the point its row falls in. -/
theorem cover (i : S500000x8.Idx) : ∃ t : Fin cfg0.N, (cfg0.win 9).flush t = true ∧ i ∈ ((cfg0.win 9).blk t).view.set := by
  have hi0 : (i 0).val < 500000 := (i 0).isLt
  have hi1 : (i 1).val < 8 := (i 1).isLt
  have hN : cfg0.N = 125 := N_0
  let t : Fin cfg0.N := ⟨(i 0).val / 4000, by rw [hN]; omega⟩
  obtain ⟨e00, e01, e10, e11, e2, e30, e31, e4, e50, e51, e6, e70, e71, e8, e90, e91⟩ := idx_facts t
  have ht : t.val = (i 0).val / 4000 := rfl
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 8 ≤ (i 1).val ∧ (i 1).val < win0_9.index t (1 : Fin 2) * 8 + 8; omega

/-- THE PACKED OUTPUT after the region is the packed logits. -/
theorem final (c : Dev nD) : (dats m 0 c).arrAt 9 cfg0.N = packedLogits m c :=
  (dats m 0 c).arrAt_eq_of_cover 9 (packedLogits m c) (fun t _ => flushed_eq m c t) cover

end Cert.KernelIdeal.Final

end
-- ==== Proof.KernelRun.lean ====
/-
  The kernel program's run, with its two results named.

  After the region the program unpacks the packed logits to one row per edge and takes, row by row, the softmax over
  the two classes; and it gathers the labels. Both are the reference's own operations, so each result is the
  reference's function of the same arguments once the unpacked array is known to be the reference's logits.
-/
import proofs.«178233_j16681652977700_2_alg».proof.Proof.Final

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.StableHlo Cert.KernelIdeal.Final

variable (m : (ℓ : Loc nD τ sig) → Buf (Elt Ideal) ℓ) (ρ : Dev nD → PrngReg)

/-! ## The operations after the region, as functions of what they read -/

/-- Each row's maximum (never below −∞). -/
def rowMax (A : FVec Ideal S2000000x2 .f32) : FVec Ideal S2000000 .f32 :=
  maximumf (broadcastInDim S2000000 ![] bcast_S_S2000000 (constant (F := Ideal) S_ .f32 0xFF800000#32))
    (Host.reduce (FloatOps.maximumf (F := Ideal) (φ := .f32)) A (constant (F := Ideal) S_ .f32 0xFF800000#32) reducesTo_S2000000x2_S2000000_d1 h_S_)

/-- The exponential of each entry less its row's maximum. -/
def expShifted (A : FVec Ideal S2000000x2 .f32) : FVec Ideal S2000000x2 .f32 :=
  Host.exp (F := Ideal) (subf A (broadcastInDim S2000000x2 ![0, 1] bcast_S2000000x1_S2000000x2_0_1
    (broadcastInDim S2000000x1 ![0] bcast_S2000000_S2000000x1_0 (rowMax A))))

/-- The softmax of each row: those exponentials over their row's sum. -/
def softmaxRows (A : FVec Ideal S2000000x2 .f32) : FVec Ideal S2000000x2 .f32 :=
  Host.divf (F := Ideal) (expShifted A) (broadcastInDim S2000000x2 ![0, 1] bcast_S2000000x1_S2000000x2_0_1
    (broadcastInDim S2000000x1 ![0] bcast_S2000000_S2000000x1_0
      (Host.reduceAdd (F := Ideal) (expShifted A) (constant (F := Ideal) S_ .f32 0x00000000#32) reducesTo_S2000000x2_S2000000_d1 h_S_)))

/-- The labels of the edges' query points: a gather at the (wrapped) row indices. -/
def labelsOf (lab : IVec S100000 32) (row : IVec S2000000 32) : IVec S2000000 32 :=
  Host.gather gather_S100000_S2000000x1_S2000000_n_0_n_n_0_1_1 lab
    (broadcastInDim S2000000x1 ![0] bcast_S2000000_S2000000x1_0
      (select (cmpi .slt row (broadcastInDim S2000000 ![] bcast_S_S2000000 (constantI S_ 32 0#32)))
        (addi row (broadcastInDim S2000000 ![] bcast_S_S2000000 (constantI S_ 32 100000#32))) row))

/-- The first result after the closing operations, from any contents W they start from: the row softmax of the
    unpacked output array. -/
theorem tail_probs (W : Valuation τ sig (Elt Ideal)) :
    (StableHlo.after hostOps1 W (Proc.devRef .tc main_v82) : S2000000x2.Idx → EReal)
      = softmaxRows (shapeCast S2000000x2 (W (Proc.devRef .tc main_v70)) shapeCasts_S500000x8_S2000000x2) := by
  simp only [hostOps1]
  after_results_simp
  rfl

/-- The second result likewise: the label gather of the arguments. -/
theorem tail_labels (W : Valuation τ sig (Elt Ideal)) :
    (StableHlo.after hostOps1 W (Proc.devRef .tc main_v89) : S2000000.Idx → BitVec 32)
      = labelsOf (W (Proc.devRef .tc main_arg3)) (W (Proc.devRef .tc main_arg4)) := by
  simp only [hostOps1]
  after_results_simp
  rfl

/-! ## The two results -/

/-- The class probabilities: the reference's stage, of this program's arguments. -/
def probs (c : Dev nD) : FVec Ideal S2000000x2 .f32 :=
  Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The gathered labels, of this program's arguments. -/
def labels (c : Dev nD) : IVec S2000000 32 :=
  labelsOf (m ((c.tc : Thread nD τ).loc main_arg3)) (m ((c.tc : Thread nD τ).loc main_arg4))

/-- The softmax of the reference's logits is the reference's probabilities stage. -/
theorem softmax_logits (c : Dev nD) : softmaxRows (logits m c) = probs m c := rfl

/-- What the region leaves in the packed output, as the closing operations find it. -/
theorem out_after_region (c : Dev nD) :
    (Pipeline.withArrays spec0 c (V0 m c) (fun w => (dats m 0 c).arrAt w cfg0.N) (Proc.devRef .tc main_v70) : S500000x8.Idx → EReal)
      = packedLogits m c :=
  (Pipeline.withArrays_arr spec0 launch0.win.arr_inj c (V0 m c) (fun w => (dats m 0 c).arrAt w cfg0.N) 9).trans (final m c)

theorem probs_eq (c : Dev nD) :
    (Pipeline.afterTail₀ cfgs (dats m) 0 (V0 m) [hostOps1] c main_v82 : S2000000x2.Idx → EReal) = probs m c := by
  unfold Pipeline.afterTail₀
  show StableHlo.after hostOps1 _ (Proc.devRef .tc main_v82) = _
  rw [tail_probs]
  refine Eq.trans (congrArg softmaxRows ?_) (softmax_logits m c)
  refine Eq.trans (congrArg (fun X => shapeCast S2000000x2 X shapeCasts_S500000x8_S2000000x2) (out_after_region m c)) ?_
  exact shapeCast_shapeCast (logits m c) casts_packed shapeCasts_S500000x8_S2000000x2

theorem labels_eq (c : Dev nD) :
    (Pipeline.afterTail₀ cfgs (dats m) 0 (V0 m) [hostOps1] c main_v89 : S2000000.Idx → BitVec 32) = labels m c := by
  unfold Pipeline.afterTail₀
  show StableHlo.after hostOps1 _ (Proc.devRef .tc main_v89) = _
  rw [tail_labels]
  unfold labels
  have h3 : Pipeline.withArrays spec0 c (V0 m c) (fun w => (dats m 0 c).arrAt w cfg0.N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays spec0 c (V0 m c) (fun w => (dats m 0 c).arrAt w cfg0.N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  exact congrArg₂ labelsOf h3 h4

/-! ## The run -/

/-- Every weakly fair execution of the kernel program ends with its two results at those functions of the arguments
    and the arguments unchanged. -/
theorem run : θ_run defs (onTc (τ := τ) (main (F := Ideal))) ⟨m, fun _ => 0, ρ⟩ (fun r => ∀ c : Dev nD,
      r.2.mem ((c.tc : Thread nD τ).loc main_v82) = probs m c
      ∧ r.2.mem ((c.tc : Thread nD τ).loc main_v89) = labels m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v82 (Pipeline.mem_restRefs_of main_v82 (by decide) (by decide))).trans (probs_eq m c),
      ((h c).2 main_v89 (Pipeline.mem_restRefs_of main_v89 (by decide) (by decide))).trans (labels_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.KernelRun

end
-- ==== Proof.lean ====
/-
  The kernel and its reference compute the same two results at the ideal values.

  Both programs gather, for each of 2,000,000 edges, a 64-entry feature row and a 3-entry position difference, join
  them into a 67-entry row, and push every row through the same four affine layers (67 → 64 → 64 → 64 → 2), taking
  the maximum with zero after the first two; a softmax over the two classes and a gather of labels follow.

  The kernel differs only in layout. It lays four consecutive edges side by side in one packed row and multiplies
  by block-diagonal weights — the Kronecker product of the 4 × 4 identity with each weight matrix — with each bias
  repeated four times, 4000 packed rows per grid point, and unpacks the logits again before the softmax. A packed
  row times such a block-diagonal matrix is, segment by segment, the segment's row times the repeated block: the
  other blocks are zero, 0 · x = 0 for every extended real x, and what is left is a re-indexed finite sum
  (Proof/BlockDiagonal.lean). Rounding to bf16 is the identity at the ideal values. So each packed layer holds, at
  (packed row R, segment s), the reference's layer at edge 4 · R + s (Proof/PackedBody.lean over Proof/BlockOps.lean
  and Proof/RefLayers.lean); the arrays the region stages are the packed features, the block-diagonal weights and
  the repeated biases (Proof/Operands.lean, Proof/Staged.lean); the 125 blocks the grid points write back tile the
  packed output (Proof/Final.lean); and the operations after the region are the reference's own
  (Proof/KernelRun.lean). No step uses that the inputs are finite.

  The three frames are the generated frame runs (the reference's is its generated run with the results dropped); the
  idealization rewrote nothing, so the fourth conjunct is trivial.
-/
import proofs.«178233_j16681652977700_2_alg».proof.Defs
import proofs.«178233_j16681652977700_2_alg».proof.Proof.Gen.Kernel
import proofs.«178233_j16681652977700_2_alg».proof.Proof.Gen.Kernel.Skeleton
import proofs.«178233_j16681652977700_2_alg».proof.Proof.Gen.Kernel.Launch
import proofs.«178233_j16681652977700_2_alg».proof.Proof.Gen.Kernel.Points
import proofs.«178233_j16681652977700_2_alg».proof.Proof.Gen.Kernel.Frame
import proofs.«178233_j16681652977700_2_alg».proof.Proof.Gen.KernelIdeal
import proofs.«178233_j16681652977700_2_alg».proof.Proof.Gen.KernelIdeal.Skeleton
import proofs.«178233_j16681652977700_2_alg».proof.Proof.Gen.KernelIdeal.Launch
import proofs.«178233_j16681652977700_2_alg».proof.Proof.Gen.KernelIdeal.Points
import proofs.«178233_j16681652977700_2_alg».proof.Proof.Gen.KernelIdeal.Frame
import proofs.«178233_j16681652977700_2_alg».proof.Proof.Gen.ReferenceIdeal
import proofs.«178233_j16681652977700_2_alg».proof.Proof.Gen.ReferenceIdeal.Run
import proofs.«178233_j16681652977700_2_alg».proof.Proof.Gen.ReferenceIdeal.Read
import proofs.«178233_j16681652977700_2_alg».proof.Proof.Gen.Pre_finite_inputs
import proofs.«178233_j16681652977700_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments, the kernel ends with the reference's probabilities and labels of its
    own arguments, and the reference with the same functions of its arguments, which are the same arrays. -/
theorem algebraic : Cert.algebraic_KernelIdeal_ReferenceIdeal := by
  intro m ρ m' ρ' _ hagree
  refine ⟨fun c => Cert.KernelIdeal.KernelRun.probs m c, fun c => Cert.KernelIdeal.KernelRun.labels m c,
    Cert.KernelIdeal.KernelRun.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13⟩ := hagree c
    rw [(h c).1, Cert.ReferenceIdeal.Read.val_main_v51_eq, a0, a1, a2, a4, a5, a6, a7, a8, a9, a10, a11, a12, a13]
    rfl
  · obtain ⟨a0, a1, a2, a3, a4, a5, a6, a7, a8, a9, a10, a11, a12, a13⟩ := hagree c
    rw [(h c).2.1, a3, a4]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
